-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x640000 : Shape := ⟨2, ![2, 640000]⟩
abbrev S100x128 : Shape := ⟨2, ![100, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg5 : FVec F S128 .f32) (main_arg6 : FVec F S128x47 .f32) (main_arg7 : FVec F S47 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x47 .f32 := Host.absf main_arg6
  let main_cst_8 : FVec F S_ .f32 := constant S_ .f32 0x7F800000#32
  let main_v25 : FVec F S128x47 .f32 := broadcastInDim S128x47 ![] bcast_S_S128x47 main_cst_8
  let main_v26 : IVec S128x47 1 := cmpf .olt main_v24 main_v25
  let main_c_9 : IVec S_ 1 := constantI S_ 1 1#1
  let main_v27 : IVec S_ 1 := (fun x v => Host.reduce IntOp.andi x v reducesTo_S128x47_S_d0_1 h_S_) main_v26 main_c_9
  let main_v28 : IVec S_ 1 := andi main_v23 main_v27
  let main_v29 : FVec F S47 .f32 := Host.absf main_arg7
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  main_v33

def fn {F : FTy → Type} [FloatOps F] (main_arg0 : FVec F S100000x100 .f32) (main_arg1 : IVec S2x640000 32) (main_arg2 : FVec F S100x128 .f32) (main_arg3 : FVec F S128 .f32) (main_arg4 : FVec F S128x128 .f32) (main_arg5 : FVec F S128 .f32) (main_arg6 : FVec F S128x47 .f32) (main_arg7 : FVec F S47 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S100x128 .f32 := Host.absf main_arg2
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x100 : Shape := ⟨2, ![100000, 100]⟩
abbrev S2x640000 : Shape := ⟨2, ![2, 640000]⟩
abbrev S100x128 : Shape := ⟨2, ![100, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x100 : Shape := ⟨2, ![640000, 100]⟩
abbrev S1x128 : Shape := ⟨2, ![1, 128]⟩
abbrev S100000x128 : Shape := ⟨2, ![100000, 128]⟩
abbrev S5000x100 : Shape := ⟨2, ![5000, 100]⟩
abbrev S5000x1 : Shape := ⟨2, ![5000, 1]⟩
abbrev S5000x128 : Shape := ⟨2, ![5000, 128]⟩
abbrev S640000x128 : Shape := ⟨2, ![640000, 128]⟩
abbrev S1x47 : Shape := ⟨2, ![1, 47]⟩
abbrev S100000x47 : Shape := ⟨2, ![100000, 47]⟩
abbrev S5000x47 : Shape := ⟨2, ![5000, 47]⟩

abbrev nBuf : Space → Nat
  | .hbm => 87
  | .vmem => 24
  | .smem => 0
  | _ => 0

abbrev bufTy : (tb : Table) → Fin (tcTables nBuf tb) → BufTy
  | .hbm, ⟨0, _⟩ => ⟨S100000x100, .f32⟩
  | .hbm, ⟨1, _⟩ => ⟨S2x640000, .i32⟩
  | .hbm, ⟨2, _⟩ => ⟨S100x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x47, .f32⟩
  | .hbm, ⟨7, _⟩ => ⟨S47, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S640000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x100, .f32⟩
  | .hbm, ⟨32, _⟩ => ⟨S100000x100, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S640000x100, .f32⟩
  | .hbm, ⟨42, _⟩ => ⟨S_, .f32⟩
  | .hbm, ⟨43, _⟩ => ⟨S100000x100, .f32⟩
  | .hbm, ⟨44, _⟩ => ⟨S640000x1, .i32⟩
  | .hbm, ⟨45, _⟩ => ⟨S100000x100, .f32⟩
  | .hbm, ⟨46, _⟩ => ⟨S100000x1, .f32⟩
  | .hbm, ⟨47, _⟩ => ⟨S1x128, .f32⟩
  | .hbm, ⟨48, _⟩ => ⟨S100000x128, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x128, .f32⟩
  | .hbm, ⟨61, _⟩ => ⟨S_, .f32⟩
  | .hbm, ⟨62, _⟩ => ⟨S100000x128, .f32⟩
  | .hbm, ⟨63, _⟩ => ⟨S640000x1, .i32⟩
  | .hbm, ⟨64, _⟩ => ⟨S100000x128, .f32⟩
  | .hbm, ⟨65, _⟩ => ⟨S100000x1, .f32⟩
  | .hbm, ⟨66, _⟩ => ⟨S1x128, .f32⟩
  | .hbm, ⟨67, _⟩ => ⟨S100000x128, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S640000, .i32⟩
  | .hbm, ⟨73, _⟩ => ⟨S640000, .i1⟩
  | .hbm, ⟨74, _⟩ => ⟨S_, .i32⟩
  | .hbm, ⟨75, _⟩ => ⟨S640000, .i32⟩
  | .hbm, ⟨76, _⟩ => ⟨S640000, .i32⟩
  | .hbm, ⟨77, _⟩ => ⟨S640000, .i32⟩
  | .hbm, ⟨78, _⟩ => ⟨S640000x1, .i32⟩
  | .hbm, ⟨79, _⟩ => ⟨S640000x128, .f32⟩
  | .hbm, ⟨80, _⟩ => ⟨S_, .f32⟩
  | .hbm, ⟨81, _⟩ => ⟨S100000x128, .f32⟩
  | .hbm, ⟨82, _⟩ => ⟨S640000x1, .i32⟩
  | .hbm, ⟨83, _⟩ => ⟨S100000x128, .f32⟩
  | .hbm, ⟨84, _⟩ => ⟨S100000x1, .f32⟩
  | .hbm, ⟨85, _⟩ => ⟨S1x47, .f32⟩
  | .hbm, ⟨86, _⟩ => ⟨S100000x47, .f32⟩
  | .local _ .vmem, ⟨0, _⟩ => ⟨S5000x100, .f32⟩
  | .local _ .vmem, ⟨1, _⟩ => ⟨S5000x100, .f32⟩
  | .local _ .vmem, ⟨2, _⟩ => ⟨S5000x1, .f32⟩
  | .local _ .vmem, ⟨3, _⟩ => ⟨S5000x1, .f32⟩
  | .local _ .vmem, ⟨4, _⟩ => ⟨S100x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x47, .f32⟩
  | .local _ .vmem, ⟨21, _⟩ => ⟨S1x47, .f32⟩
  | .local _ .vmem, ⟨22, _⟩ => ⟨S5000x47, .f32⟩
  | .local _ .vmem, ⟨23, _⟩ => ⟨S5000x47, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x47 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S100000x1_S100000x100_0_1 : S100000x1.BroadcastsInDim S100000x100 (![0, 1] : Fin 2 → Fin S100000x100.rank)
  bcast_S_S100000x100 : S_.BroadcastsInDim S100000x100 (![] : Fin 0 → Fin S100000x100.rank)
  shapeCasts_S100000_S100000x1 : S100000.ShapeCasts S100000x1
  shapeCasts_S128_S1x128 : S128.ShapeCasts S1x128
  inb_S5000x100_S5000x100_0_0 : ∀ a, (![0, 0] : Fin 2 → Nat) a + S5000x100.size a ≤ S5000x100.size a
  h_S5000x100 : 0 < S5000x100.numel
  shapeCasts_S5000x100_S5000x100 : S5000x100.ShapeCasts S5000x100
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x100 : S5000x1.Broadcasts S5000x100
  bitsLt_bf16_f32 : FTy.bits .bf16 < FTy.bits .f32
  inb_S100x128_S100x128_0_0 : ∀ a, (![0, 0] : Fin 2 → Nat) a + S100x128.size a ≤ S100x128.size a
  h_S100x128 : 0 < S100x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  inb_S5000x47_S5000x47_0_0 : ∀ a, (![0, 0] : Fin 2 → Nat) a + S5000x47.size a ≤ S5000x47.size a
  h_S5000x47 : 0 < S5000x47.numel
  scatter_S100000_S640000x1_S640000_n_0_0_1_wf : ScatterDims.WF S100000 S640000x1 S640000 [] [0] [0] 1
  gather_S100000x100_S640000x1_S640000x100_1_0_n_n_0_1_1100_wf : GatherDims.WF S100000x100 S640000x1 S640000x100 [1] [0] [] [0] [] 1 ![1, 100]
  scatter_S100000x100_S640000x1_S640000x100_1_0_0_1_wf : ScatterDims.WF S100000x100 S640000x1 S640000x100 [1] [0] [0] 1
  dot_S5000x100_S100x128_S5000x128_1_0_0_1_n_n_wf : DotDims.WF S5000x100 S100x128 S5000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S100000x100.size a
  hwx0_0 : ∀ i : grid0.Coords, EltTy.bits .f32 = 32 ∨ (Rect.block (s := S100000x100) S5000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x128.size a ≤ S100x128.size a
  hwx0_2 : ∀ i : grid0.Coords, EltTy.bits .f32 = 32 ∨ (Rect.block (s := S100x128) S100x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x47.size a ≤ S128x47.size a
  hwx2_2 : ∀ i : grid2.Coords, EltTy.bits .f32 = 32 ∨ (Rect.block (s := S128x47) S128x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x47.size a ≤ S1x47.size a
  hwx2_3 : ∀ i : grid2.Coords, EltTy.bits .f32 = 32 ∨ (Rect.block (s := S1x47) S1x47.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x47.size a ≤ S100000x47.size a
  hwx2_4 : ∀ i : grid2.Coords, EltTy.bits .f32 = 32 ∨ (Rect.block (s := S100000x47) S5000x47.size (cc2_transform_4 i) (hinb2_4 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x100_S640000x1_S640000x100_1_0_n_n_0_1_1100 : GatherDims S100000x100 S640000x1 S640000x100 where
  offsetDims := [1]
  collapsedSliceDims := [0]
  operandBatchingDims := []
  startIndicesBatchingDims := []
  startIndexMap := [0]
  indexVectorDim := 1
  sliceSizes := ![1, 100]
  wf := gather_S100000x100_S640000x1_S640000x100_1_0_n_n_0_1_1100_wf
def scatter_S100000x100_S640000x1_S640000x100_1_0_0_1 : ScatterDims S100000x100 S640000x1 S640000x100 where
  updateWindowDims := [1]
  insertedWindowDims := [0]
  scatterDimsToOperandDims := [0]
  indexVectorDim := 1
  wf := scatter_S100000x100_S640000x1_S640000x100_1_0_0_1_wf
def dot_S5000x100_S100x128_S5000x128_1_0_0_1_n_n : DotDims S5000x100 S100x128 S5000x128 where
  lhsContracting := [1]
  rhsContracting := [0]
  lhsNonContracting := [0]
  rhsNonContracting := [1]
  lhsBatch := []
  rhsBatch := []
  wf := dot_S5000x100_S100x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_v29) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S100x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S5000x47.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x100 : Shape := ⟨2, ![100000, 100]⟩
abbrev S2x640000 : Shape := ⟨2, ![2, 640000]⟩
abbrev S100x128 : Shape := ⟨2, ![100, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x100 : Shape := ⟨2, ![640000, 100]⟩
abbrev S100000x128 : Shape := ⟨2, ![100000, 128]⟩
abbrev S1x128 : Shape := ⟨2, ![1, 128]⟩
abbrev S640000x128 : Shape := ⟨2, ![640000, 128]⟩
abbrev S100000x47 : Shape := ⟨2, ![100000, 47]⟩
abbrev S1x47 : Shape := ⟨2, ![1, 47]⟩

abbrev nBuf : Space → Nat
  | .hbm => 144
  | .vmem => 0
  | .smem => 0
  | _ => 0

abbrev hbmTy0_0 (i : Nat) : BufTy := match i % 128 with
  | 0 => ⟨S100000x100, .f32⟩
  | 1 => ⟨S2x640000, .i32⟩
  | 2 => ⟨S100x128, .f32⟩
  | 3 => ⟨S128, .f32⟩
  | 4 => ⟨S128x128, .f32⟩
  | 5 => ⟨S128, .f32⟩
  | 6 => ⟨S128x47, .f32⟩
  | 7 => ⟨S47, .f32⟩
  | 8 => ⟨S1x640000, .i32⟩
  | 9 => ⟨S640000, .i32⟩
  | 10 => ⟨S1x640000, .i32⟩
  | 11 => ⟨S640000, .i32⟩
  | 12 => ⟨S_, .f32⟩
  | 13 => ⟨S640000, .f32⟩
  | 14 => ⟨S_, .f32⟩
  | 15 => ⟨S100000, .f32⟩
  | 16 => ⟨S640000x1, .i32⟩
  | 17 => ⟨S100000, .f32⟩
  | 18 => ⟨S_, .f32⟩
  | 19 => ⟨S100000, .f32⟩
  | 20 => ⟨S640000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000, .f32⟩
  | 30 => ⟨S100000x1, .f32⟩
  | 31 => ⟨S100000x100, .f32⟩
  | 32 => ⟨S100000x100, .f32⟩
  | 33 => ⟨S_, .i32⟩
  | 34 => ⟨S640000, .i32⟩
  | 35 => ⟨S640000, .i1⟩
  | 36 => ⟨S_, .i32⟩
  | 37 => ⟨S640000, .i32⟩
  | 38 => ⟨S640000, .i32⟩
  | 39 => ⟨S640000, .i32⟩
  | 40 => ⟨S640000x1, .i32⟩
  | 41 => ⟨S640000x100, .f32⟩
  | 42 => ⟨S_, .f32⟩
  | 43 => ⟨S100000x100, .f32⟩
  | 44 => ⟨S640000x1, .i32⟩
  | 45 => ⟨S100000x100, .f32⟩
  | 46 => ⟨S100000x1, .f32⟩
  | 47 => ⟨S100000x100, .f32⟩
  | 48 => ⟨S100000x100, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S_, .f32⟩
  | 57 => ⟨S640000, .f32⟩
  | 58 => ⟨S_, .f32⟩
  | 59 => ⟨S100000, .f32⟩
  | 60 => ⟨S640000x1, .i32⟩
  | 61 => ⟨S100000, .f32⟩
  | 62 => ⟨S_, .f32⟩
  | 63 => ⟨S100000, .f32⟩
  | 64 => ⟨S640000x1, .i32⟩
  | 65 => ⟨S100000, .f32⟩
  | 66 => ⟨S_, .f32⟩
  | 67 => ⟨S100000, .f32⟩
  | 68 => ⟨S100000, .f32⟩
  | 69 => ⟨S100000, .f32⟩
  | 70 => ⟨S_, .f32⟩
  | 71 => ⟨S100000, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S_, .i32⟩
  | 78 => ⟨S640000, .i32⟩
  | 79 => ⟨S640000, .i1⟩
  | 80 => ⟨S_, .i32⟩
  | 81 => ⟨S640000, .i32⟩
  | 82 => ⟨S640000, .i32⟩
  | 83 => ⟨S640000, .i32⟩
  | 84 => ⟨S640000x1, .i32⟩
  | 85 => ⟨S640000x128, .f32⟩
  | 86 => ⟨S_, .f32⟩
  | 87 => ⟨S100000x128, .f32⟩
  | 88 => ⟨S640000x1, .i32⟩
  | 89 => ⟨S100000x128, .f32⟩
  | 90 => ⟨S100000x1, .f32⟩
  | 91 => ⟨S100000x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S_, .f32⟩
  | 101 => ⟨S640000, .f32⟩
  | 102 => ⟨S_, .f32⟩
  | 103 => ⟨S100000, .f32⟩
  | 104 => ⟨S640000x1, .i32⟩
  | 105 => ⟨S100000, .f32⟩
  | 106 => ⟨S_, .f32⟩
  | 107 => ⟨S100000, .f32⟩
  | 108 => ⟨S640000x1, .i32⟩
  | 109 => ⟨S100000, .f32⟩
  | 110 => ⟨S_, .f32⟩
  | 111 => ⟨S100000, .f32⟩
  | 112 => ⟨S100000, .f32⟩
  | 113 => ⟨S100000, .f32⟩
  | 114 => ⟨S_, .f32⟩
  | 115 => ⟨S100000, .f32⟩
  | 116 => ⟨S100000, .f32⟩
  | 117 => ⟨S100000, .f32⟩
  | 118 => ⟨S100000x1, .f32⟩
  | 119 => ⟨S100000x128, .f32⟩
  | 120 => ⟨S100000x128, .f32⟩
  | 121 => ⟨S_, .i32⟩
  | 122 => ⟨S640000, .i32⟩
  | 123 => ⟨S640000, .i1⟩
  | 124 => ⟨S_, .i32⟩
  | 125 => ⟨S640000, .i32⟩
  | 126 => ⟨S640000, .i32⟩
  | 127 => ⟨S640000, .i32⟩
  | _ => ⟨S100000x100, .f32⟩

abbrev hbmTy0_1 (i : Nat) : BufTy := match i % 128 with
  | 0 => ⟨S640000x1, .i32⟩
  | 1 => ⟨S640000x128, .f32⟩
  | 2 => ⟨S_, .f32⟩
  | 3 => ⟨S100000x128, .f32⟩
  | 4 => ⟨S640000x1, .i32⟩
  | 5 => ⟨S100000x128, .f32⟩
  | 6 => ⟨S100000x1, .f32⟩
  | 7 => ⟨S100000x128, .f32⟩
  | 8 => ⟨S100000x128, .f32⟩
  | 9 => ⟨S100000x47, .f32⟩
  | 10 => ⟨S1x47, .f32⟩
  | 11 => ⟨S100000x47, .f32⟩
  | 12 => ⟨S100000x47, .f32⟩
  | 13 => ⟨S_, .f32⟩
  | 14 => ⟨S100000x47, .f32⟩
  | 15 => ⟨S100000x47, .f32⟩
  | _ => ⟨S100000x100, .f32⟩

abbrev hbmTy (i : Nat) : BufTy := match i / 128 with
  | 0 => hbmTy0_0 i
  | 1 => hbmTy0_1 i
  | _ => ⟨S100000x100, .f32⟩

abbrev bufTy : (tb : Table) → Fin (tcTables nBuf tb) → BufTy
  | .hbm, ⟨i, _⟩ => hbmTy i
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call0_cst : Ref sig .tc := ⟨.hbm, 53, rfl⟩
abbrev main_call0_v0 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call1_cst : Ref sig .tc := ⟨.hbm, 97, rfl⟩
abbrev main_call1_v0 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_17 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_18 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_19 : Ref sig .tc := ⟨.hbm, 121, rfl⟩
abbrev main_v88 : Ref sig .tc := ⟨.hbm, 122, rfl⟩
abbrev main_v89 : Ref sig .tc := ⟨.hbm, 123, rfl⟩
abbrev main_c_20 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_21 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_call2_cst : Ref sig .tc := ⟨.hbm, 141, rfl⟩
abbrev main_call2_v0 : Ref sig .tc := ⟨.hbm, 142, rfl⟩
abbrev main_v105 : Ref sig .tc := ⟨.hbm, 143, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S100000x1_S100000x100_0_1 : S100000x1.BroadcastsInDim S100000x100 (![0, 1] : Fin 2 → Fin S100000x100.rank)
  bcast_S_S100000x100 : S_.BroadcastsInDim S100000x100 (![] : Fin 0 → Fin S100000x100.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  bcast_S_S100000x47 : S_.BroadcastsInDim S100000x47 (![] : Fin 0 → Fin S100000x47.rank)
  scatter_S100000_S640000x1_S640000_n_0_0_1_wf : ScatterDims.WF S100000 S640000x1 S640000 [] [0] [0] 1
  gather_S100000x100_S640000x1_S640000x100_1_0_n_n_0_1_1100_wf : GatherDims.WF S100000x100 S640000x1 S640000x100 [1] [0] [] [0] [] 1 ![1, 100]
  scatter_S100000x100_S640000x1_S640000x100_1_0_0_1_wf : ScatterDims.WF S100000x100 S640000x1 S640000x100 [1] [0] [0] 1
  dot_S100000x100_S100x128_S100000x128_1_0_0_1_n_n_wf : DotDims.WF S100000x100 S100x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x100_S640000x1_S640000x100_1_0_n_n_0_1_1100 : GatherDims S100000x100 S640000x1 S640000x100 where
  offsetDims := [1]
  collapsedSliceDims := [0]
  operandBatchingDims := []
  startIndicesBatchingDims := []
  startIndexMap := [0]
  indexVectorDim := 1
  sliceSizes := ![1, 100]
  wf := gather_S100000x100_S640000x1_S640000x100_1_0_n_n_0_1_1100_wf
def scatter_S100000x100_S640000x1_S640000x100_1_0_0_1 : ScatterDims S100000x100 S640000x1 S640000x100 where
  updateWindowDims := [1]
  insertedWindowDims := [0]
  scatterDimsToOperandDims := [0]
  indexVectorDim := 1
  wf := scatter_S100000x100_S640000x1_S640000x100_1_0_0_1_wf
def dot_S100000x100_S100x128_S100000x128_1_0_0_1_n_n : DotDims S100000x100 S100x128 S100000x128 where
  lhsContracting := [1]
  rhsContracting := [0]
  lhsNonContracting := [0]
  rhsNonContracting := [1]
  lhsBatch := []
  rhsBatch := []
  wf := dot_S100000x100_S100x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.LibDenseLayer.lean ====
/-
  A dense layer read at an entry.

  For a row `x`, a weight matrix `W` and a bias `b`, entry `c` of `x · W + b` is the sum over the contracted coordinate `h`
  of `x h * W h c`, plus `b c`, on the extended reals. A matrix product of `[n, k]` by `[k, o]` into a zero accumulator has
  at entry `(p, q)` the sum over `h` of the left operand at `(p, h)` times the right at `(h, q)`; rounding an operand to a
  narrower float format first is the identity on the extended reals; a bias held as a row `[1, o]` and broadcast down
  the `n` rows contributes its entry `(0, q)`. So entry `(p, q)` of such a layer is `affine` of row `p` of the left operand.
-/
import proofs.«173624_j39702677684864_1_alg».proof.Proof.LibMatProduct
import Idealize.ShloMosaic.Lib.ValueIdx
import Idealize.ShloMosaic.Lib.ValueLayout
import Idealize.ShloMosaic.Lib.Pipeline.Value

noncomputable section

namespace Cert.LibDenseLayer

open Idealize.ShloMosaic Idealize.ShloMosaic.ValueIdx

/-- Entry `c` of `x · W + b`: the sum over the contracted coordinate, then the bias. Rows, matrices and biases are plain
    functions of their coordinates, so that a row of an array, a row of a block, a `[n]` bias and a `[1, n]` bias all fit. -/
def affine {k o : ℕ} (x : Fin k → EReal) (W : Fin k → Fin o → EReal) (b : Fin o → EReal) (c : Fin o) : EReal :=
  (∑ h : Fin k, x h * W h c) + b c

/-- Entry `(p, q)` of a matrix product `[n, k] · [k, o]` (the left operand's columns contracted with the right operand's
    rows, no batch axes) into a zero accumulator is `∑ h, X (p, h) * W (h, q)`. -/
theorem matmul_at {n k o : ℕ} {φ₁ φ₂ : FTy} (d : DotDims ⟨2, ![n, k]⟩ ⟨2, ![k, o]⟩ ⟨2, ![n, o]⟩)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![n, k]⟩ φ₁) (W : FVec Ideal ⟨2, ![k, o]⟩ φ₂) (p : Fin n) (q : Fin o) :
    matmul d none X W (constant ⟨2, ![n, o]⟩ .f32 0x00000000#32) (ix2 p q) = ∑ h : Fin k, X (ix2 p h) * W (ix2 h q) :=
  Cert.LibMatProduct.matmul_zero_apply d none hlc hrc hln hrn hlb hrb X W p q

/-- ONE DENSE LAYER at entry `(p, q)`: the product of `X` and `W` (each first rounded to a narrower format) into a zero
    accumulator, plus the bias row `b : [1, o]` broadcast down the rows, is `affine` of row `p` of `X`, of `W` and of the
    bias row, at `q`: `∑ h, X (p, h) * W (h, q) + b (0, q)`. -/
theorem dense_at {n k o : ℕ} (d : DotDims ⟨2, ![n, k]⟩ ⟨2, ![k, o]⟩ ⟨2, ![n, o]⟩)
    (hlc : d.lhsContracting = [1]) (hrc : d.rhsContracting = [0])
    (hln : d.lhsNonContracting = [0]) (hrn : d.rhsNonContracting = [1])
    (hlb : d.lhsBatch = []) (hrb : d.rhsBatch = [])
    (X : FVec Ideal ⟨2, ![n, k]⟩ .f32) (W : FVec Ideal ⟨2, ![k, o]⟩ .f32) (b : FVec Ideal ⟨2, ![1, o]⟩ .f32)
    (hX : FTy.bf16.bits < FTy.f32.bits) (hW : FTy.bf16.bits < FTy.f32.bits)
    (hs : (⟨2, ![1, o]⟩ : Shape).ShapeCasts ⟨2, ![1, o]⟩) (hb : (⟨2, ![1, o]⟩ : Shape).Broadcasts ⟨2, ![n, o]⟩)
    (p : Fin n) (q : Fin o) :
    addf (matmul d none (truncf .bf16 X hX) (truncf .bf16 W hW) (constant ⟨2, ![n, o]⟩ .f32 0x00000000#32))
        (broadcastTo ⟨2, ![n, o]⟩ (shapeCast ⟨2, ![1, o]⟩ b hs) hb) (ix2 p q)
      = affine (fun h => X (ix2 p h)) (fun h c => W (ix2 h c)) (fun c => b (ix2 (0 : Fin 1) c)) q := by
  rw [addf_apply, matmul_at d hlc hrc hln hrn hlb hrb, broadcastTo_1b_ab_apply, shapeCast_self]
  rfl

end Cert.LibDenseLayer

end
-- ==== Proof.LibHostProduct.lean ====
/-
  The host's matrix product, read at an entry.

  For operands `[m, k]` and `[k, n]` contracted over the left operand's columns and the right operand's rows, entry
  `(r, c)` of the host's `dot_general` at the ideal values is the sum over the contracted coordinate `h` of
  `lhs (r, h) · rhs (h, c)`: the host's product has no accumulator, a kernel's product into a zero accumulator adds
  zero, so the two are the same sum over the contraction's index set, and that set is re-indexed by its coordinate.
-/
import Idealize.ShloMosaic.Lib.ValueIdx
import Idealize.ShloMosaic.PureOps.Ideal.Laws
import proofs.«173624_j39702677684864_1_alg».proof.Proof.LibMatProduct

noncomputable section

namespace Cert.LibHostProduct

open Idealize.ShloMosaic Idealize.ShloMosaic.ValueIdx

/-- The host's product and a kernel's product into a zero accumulator agree at every entry, whatever the shapes. -/
theorem hostDot_eq_matmul_zero {sl sr so : Shape} {φ₁ φ₂ : FTy} (d : DotDims sl sr so) (prec : Option ContractPrecision)
    (lhs : FVec Ideal sl φ₁) (rhs : FVec Ideal sr φ₂) (j : so.Idx) :
    Host.dotGeneral d prec lhs rhs j = FloatOps.matmul d prec lhs rhs (constant so .f32 0x00000000#32) j :=
  (Ideal.dotGeneral_apply d prec .single lhs rhs j).trans (Ideal.matmul_constant_zero_apply d prec lhs rhs j).symm

/-- Entry `(r, c)` of the host's `lhs · rhs` is `∑ h, lhs (r, h) · rhs (h, c)`. -/
theorem hostDot_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    Host.dotGeneral d prec lhs rhs (ix2 r c) = ∑ h : Fin k, lhs (ix2 r h) * rhs (ix2 h c) :=
  (hostDot_eq_matmul_zero d prec lhs rhs (ix2 r c)).trans
    (Cert.LibMatProduct.matmul_zero_apply d prec hlc hrc hln hrn hlb hrb lhs rhs r c)

end Cert.LibHostProduct

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.LibGraphLayer.lean ====
/-
  The dense stage of one graph-convolution layer, entry by entry, on the extended reals.

  A layer takes the aggregated features `A : [n, k]`, the destination-degree scale `s` (one number per node), a weight
  matrix `W : [k, o]` and a bias `b` (one number per output feature), and returns
  `max (∑ h, (A (r, h) · s r) · W (h, c) + b c, 0)` at node `r` and feature `c`. Two spellings of that array are
  read here at an entry and found to be the same function `layer`:
  * the tile form: the scale held as a column `[n, 1]` and spread along the rows, both product operands rounded to a
    narrower float format (the identity on the extended reals), a matrix product into a zero accumulator, the bias held as
    a row `[1, o]` and spread down the rows, the maximum with a splat zero;
  * the whole-array form: the scale a vector `[n]` spread to a column and then along the rows, a `dot_general`, the
    bias a vector `[o]` spread to a row and then down the rows, the maximum with a broadcast scalar zero.
  No law of arithmetic is used: the two are the same sum of the same products in the same order.
-/
import proofs.«173624_j39702677684864_1_alg».proof.Proof.LibDenseLayer
import proofs.«173624_j39702677684864_1_alg».proof.Proof.LibHostProduct
import proofs.«173624_j39702677684864_1_alg».proof.Proof.LibKeepdims
import Idealize.ShloMosaic.Lib.ValueIdx
import Idealize.ShloMosaic.Lib.ValueLayout
import Idealize.ShloMosaic.Lib.Pipeline.Value

noncomputable section

namespace Cert.LibGraphLayer

open Idealize.ShloMosaic Idealize.ShloMosaic.ValueIdx

/-- Entry `c` of the dense stage for one node: the node's aggregated row `x`, scaled by the node's number `s`,
    times the weights, plus the bias, cut off below at zero. -/
def entry {k o : ℕ} (x : Fin k → EReal) (s : EReal) (W : Fin k → Fin o → EReal) (b : Fin o → EReal) (c : Fin o) : EReal :=
  max ((∑ h : Fin k, (x h * s) * W h c) + b c) (Ideal.ofBits .f32 0x00000000#32)

/-- The dense stage as one array: `entry` of row `i 0` at feature `i 1`, the scale a column and the bias a row. -/
def layer {n k o : ℕ} (A : FVec Ideal ⟨2, ![n, k]⟩ .f32) (s : FVec Ideal ⟨2, ![n, 1]⟩ .f32)
    (W : FVec Ideal ⟨2, ![k, o]⟩ .f32) (b : FVec Ideal ⟨2, ![1, o]⟩ .f32) : FVec Ideal ⟨2, ![n, o]⟩ .f32 :=
  fun i => entry (fun h => A (ix2 (i 0 : Fin n) h)) (s (ix2 (i 0 : Fin n) (0 : Fin 1))) (fun h c => W (ix2 h c))
    (fun c => b (ix2 (0 : Fin 1) c)) (i 1 : Fin o)

theorem layer_apply {n k o : ℕ} (A : FVec Ideal ⟨2, ![n, k]⟩ .f32) (s : FVec Ideal ⟨2, ![n, 1]⟩ .f32)
    (W : FVec Ideal ⟨2, ![k, o]⟩ .f32) (b : FVec Ideal ⟨2, ![1, o]⟩ .f32) (r : Fin n) (c : Fin o) :
    layer A s W b (ix2 r c) = entry (fun h => A (ix2 r h)) (s (ix2 r (0 : Fin 1))) (fun h c => W (ix2 h c))
      (fun c => b (ix2 (0 : Fin 1) c)) c := rfl

/-! ## The tile form -/

/-- The tile form at entry `(p, q)`. -/
theorem tile_at {n k o : ℕ} (d : DotDims ⟨2, ![n, k]⟩ ⟨2, ![k, o]⟩ ⟨2, ![n, o]⟩)
    (hlc : d.lhsContracting = [1]) (hrc : d.rhsContracting = [0])
    (hln : d.lhsNonContracting = [0]) (hrn : d.rhsNonContracting = [1])
    (hlb : d.lhsBatch = []) (hrb : d.rhsBatch = [])
    (x0 : FVec Ideal ⟨2, ![n, k]⟩ .f32) (x1 : FVec Ideal ⟨2, ![n, 1]⟩ .f32)
    (x2 : FVec Ideal ⟨2, ![k, o]⟩ .f32) (x3 : FVec Ideal ⟨2, ![1, o]⟩ .f32)
    (hs0 : (⟨2, ![n, k]⟩ : Shape).ShapeCasts ⟨2, ![n, k]⟩) (hs1 : (⟨2, ![n, 1]⟩ : Shape).ShapeCasts ⟨2, ![n, 1]⟩)
    (hb1 : (⟨2, ![n, 1]⟩ : Shape).Broadcasts ⟨2, ![n, k]⟩)
    (hX : FTy.bf16.bits < FTy.f32.bits) (hW : FTy.bf16.bits < FTy.f32.bits)
    (hs3 : (⟨2, ![1, o]⟩ : Shape).ShapeCasts ⟨2, ![1, o]⟩) (hb3 : (⟨2, ![1, o]⟩ : Shape).Broadcasts ⟨2, ![n, o]⟩)
    (p : Fin n) (q : Fin o) :
    maximumf (addf (matmul d none
          (truncf .bf16 (mulf (shapeCast ⟨2, ![n, k]⟩ x0 hs0) (broadcastTo ⟨2, ![n, k]⟩ (shapeCast ⟨2, ![n, 1]⟩ x1 hs1) hb1)) hX)
          (truncf .bf16 x2 hW) (constant ⟨2, ![n, o]⟩ .f32 0x00000000#32))
        (broadcastTo ⟨2, ![n, o]⟩ (shapeCast ⟨2, ![1, o]⟩ x3 hs3) hb3))
      (broadcast ⟨2, ![n, o]⟩ (Scalar.ofBits (F := Ideal) .f32 0x00000000#32)) (ix2 p q)
    = entry (fun h => x0 (ix2 p h)) (x1 (ix2 p (0 : Fin 1))) (fun h c => x2 (ix2 h c)) (fun c => x3 (ix2 (0 : Fin 1) c)) q := by
  rw [maximumf_apply, Cert.LibDenseLayer.dense_at d hlc hrc hln hrn hlb hrb]
  unfold Cert.LibDenseLayer.affine entry
  simp only [mulf_apply, shapeCast_self, Cert.LibKeepdims.broadcastTo_a1_ab_apply, broadcast_apply,
    Cert.LibKeepdims.scalar_ofBits]

/-- The tile form is `layer` of its four operands. -/
theorem tile_eq {n k o : ℕ} (d : DotDims ⟨2, ![n, k]⟩ ⟨2, ![k, o]⟩ ⟨2, ![n, o]⟩)
    (hlc : d.lhsContracting = [1]) (hrc : d.rhsContracting = [0])
    (hln : d.lhsNonContracting = [0]) (hrn : d.rhsNonContracting = [1])
    (hlb : d.lhsBatch = []) (hrb : d.rhsBatch = [])
    (x0 : FVec Ideal ⟨2, ![n, k]⟩ .f32) (x1 : FVec Ideal ⟨2, ![n, 1]⟩ .f32)
    (x2 : FVec Ideal ⟨2, ![k, o]⟩ .f32) (x3 : FVec Ideal ⟨2, ![1, o]⟩ .f32)
    (hs0 : (⟨2, ![n, k]⟩ : Shape).ShapeCasts ⟨2, ![n, k]⟩) (hs1 : (⟨2, ![n, 1]⟩ : Shape).ShapeCasts ⟨2, ![n, 1]⟩)
    (hb1 : (⟨2, ![n, 1]⟩ : Shape).Broadcasts ⟨2, ![n, k]⟩)
    (hX : FTy.bf16.bits < FTy.f32.bits) (hW : FTy.bf16.bits < FTy.f32.bits)
    (hs3 : (⟨2, ![1, o]⟩ : Shape).ShapeCasts ⟨2, ![1, o]⟩) (hb3 : (⟨2, ![1, o]⟩ : Shape).Broadcasts ⟨2, ![n, o]⟩) :
    maximumf (addf (matmul d none
          (truncf .bf16 (mulf (shapeCast ⟨2, ![n, k]⟩ x0 hs0) (broadcastTo ⟨2, ![n, k]⟩ (shapeCast ⟨2, ![n, 1]⟩ x1 hs1) hb1)) hX)
          (truncf .bf16 x2 hW) (constant ⟨2, ![n, o]⟩ .f32 0x00000000#32))
        (broadcastTo ⟨2, ![n, o]⟩ (shapeCast ⟨2, ![1, o]⟩ x3 hs3) hb3))
      (broadcast ⟨2, ![n, o]⟩ (Scalar.ofBits (F := Ideal) .f32 0x00000000#32))
    = layer x0 x1 x2 x3 := funext fun j => by
  obtain ⟨p, q, rfl⟩ : ∃ (p : Fin n) (q : Fin o), j = ix2 p q := ⟨j 0, j 1, eq_ix2 j⟩
  exact tile_at d hlc hrc hln hrn hlb hrb x0 x1 x2 x3 hs0 hs1 hb1 hX hW hs3 hb3 p q

/-! ## The whole-array form -/

variable {α : Type}

/-- A vector `[n]` spread to the column `[n, 1]` and then along the rows of `[n, k]` reads, at `(r, h)`, the vector at `r`. -/
theorem column_spread_apply {n k : ℕ} (v : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, k]⟩ ![0, 1]) (r : Fin n) (h : Fin k) :
    broadcastInDim ⟨2, ![n, k]⟩ ![0, 1] h2 (broadcastInDim ⟨2, ![n, 1]⟩ ![0] h1 v) (ix2 r h) = v (ix1 r) :=
  (broadcastInDim_apply _ h2 _ (ix2 r h) (ix2 r (0 : Fin 1)) (fun a => by
    match a with
    | ⟨0, _⟩ =>
      show r.val = if n = 1 then 0 else r.val
      split
      · have := r.isLt; omega
      · rfl
    | ⟨1, _⟩ => rfl)).trans
  (broadcastInDim_apply _ h1 v (ix2 r (0 : Fin 1)) (ix1 r) (fun a => by
    match a with
    | ⟨0, _⟩ =>
      show r.val = if n = 1 then 0 else r.val
      split
      · have := r.isLt; omega
      · rfl))

/-- A vector `[o]` spread to the row `[1, o]` and then down the rows of `[n, o]` reads, at `(r, c)`, the vector at `c`. -/
theorem row_spread_apply {n o : ℕ} (b : (⟨1, ![o]⟩ : Shape).Idx → α)
    (h3 : (⟨1, ![o]⟩ : Shape).BroadcastsInDim ⟨2, ![1, o]⟩ ![1])
    (h4 : (⟨2, ![1, o]⟩ : Shape).BroadcastsInDim ⟨2, ![n, o]⟩ ![0, 1]) (r : Fin n) (c : Fin o) :
    broadcastInDim ⟨2, ![n, o]⟩ ![0, 1] h4 (broadcastInDim ⟨2, ![1, o]⟩ ![1] h3 b) (ix2 r c) = b (ix1 c) :=
  (broadcastInDim_apply _ h4 _ (ix2 r c) (ix2 (0 : Fin 1) c) (fun a => by
    match a with
    | ⟨0, _⟩ => rfl
    | ⟨1, _⟩ =>
      show c.val = if o = 1 then 0 else c.val
      split
      · have := c.isLt; omega
      · rfl)).trans
  (broadcastInDim_apply _ h3 b (ix2 (0 : Fin 1) c) (ix1 c) (fun a => by
    match a with
    | ⟨0, _⟩ =>
      show c.val = if o = 1 then 0 else c.val
      split
      · have := c.isLt; omega
      · rfl))

/-- A scalar spread over `[n, o]` reads the scalar everywhere. -/
theorem scalar_spread_apply {n o : ℕ} (z : (⟨0, ![]⟩ : Shape).Idx → α)
    (h5 : (⟨0, ![]⟩ : Shape).BroadcastsInDim ⟨2, ![n, o]⟩ ![]) (j : (⟨2, ![n, o]⟩ : Shape).Idx) :
    broadcastInDim ⟨2, ![n, o]⟩ ![] h5 z j = z ix0 :=
  broadcastInDim_apply _ h5 z j ix0 (fun a => a.elim0)

/-- The whole-array form at entry `(r, c)`. -/
theorem host_at {n k o : ℕ} (d : DotDims ⟨2, ![n, k]⟩ ⟨2, ![k, o]⟩ ⟨2, ![n, o]⟩)
    (hlc : d.lhsContracting = [1]) (hrc : d.rhsContracting = [0])
    (hln : d.lhsNonContracting = [0]) (hrn : d.rhsNonContracting = [1])
    (hlb : d.lhsBatch = []) (hrb : d.rhsBatch = [])
    (A : FVec Ideal ⟨2, ![n, k]⟩ .f32) (v : FVec Ideal ⟨1, ![n]⟩ .f32)
    (W : FVec Ideal ⟨2, ![k, o]⟩ .f32) (b : FVec Ideal ⟨1, ![o]⟩ .f32)
    (h1 : (⟨1, ![n]⟩ : Shape).BroadcastsInDim ⟨2, ![n, 1]⟩ ![0])
    (h2 : (⟨2, ![n, 1]⟩ : Shape).BroadcastsInDim ⟨2, ![n, k]⟩ ![0, 1])
    (h3 : (⟨1, ![o]⟩ : Shape).BroadcastsInDim ⟨2, ![1, o]⟩ ![1])
    (h4 : (⟨2, ![1, o]⟩ : Shape).BroadcastsInDim ⟨2, ![n, o]⟩ ![0, 1])
    (h5 : (⟨0, ![]⟩ : Shape).BroadcastsInDim ⟨2, ![n, o]⟩ ![]) (r : Fin n) (c : Fin o) :
    maximumf (addf (Host.dotGeneral d none
          (mulf A (broadcastInDim ⟨2, ![n, k]⟩ ![0, 1] h2 (broadcastInDim ⟨2, ![n, 1]⟩ ![0] h1 v))) W)
        (broadcastInDim ⟨2, ![n, o]⟩ ![0, 1] h4 (broadcastInDim ⟨2, ![1, o]⟩ ![1] h3 b)))
      (broadcastInDim ⟨2, ![n, o]⟩ ![] h5 (constant ⟨0, ![]⟩ .f32 0x00000000#32)) (ix2 r c)
    = entry (fun h => A (ix2 r h)) (v (ix1 r)) (fun h c => W (ix2 h c)) (fun c => b (ix1 c)) c := by
  rw [maximumf_apply, addf_apply, Cert.LibHostProduct.hostDot_apply d none hlc hrc hln hrn hlb hrb,
    row_spread_apply, scalar_spread_apply]
  unfold entry
  simp only [mulf_apply, constant_apply]
  refine congrArg (fun z => max (z + b (ix1 c)) (Ideal.ofBits .f32 0x00000000#32)) (Finset.sum_congr rfl fun h _ => ?_)
  exact congrArg (fun z => A (ix2 r h) * z * W (ix2 h c)) (column_spread_apply v h1 h2 r h)

/-- The whole-array form is `layer` with the scale recast as a column and the bias as a row. -/
theorem host_eq {n k o : ℕ} (d : DotDims ⟨2, ![n, k]⟩ ⟨2, ![k, o]⟩ ⟨2, ![n, o]⟩)
    (hlc : d.lhsContracting = [1]) (hrc : d.rhsContracting = [0])
    (hln : d.lhsNonContracting = [0]) (hrn : d.rhsNonContracting = [1])
    (hlb : d.lhsBatch = []) (hrb : d.rhsBatch = [])
    (A : FVec Ideal ⟨2, ![n, k]⟩ .f32) (v : FVec Ideal ⟨1, ![n]⟩ .f32)
    (W : FVec Ideal ⟨2, ![k, o]⟩ .f32) (b : FVec Ideal ⟨1, ![o]⟩ .f32)
    (h1 : (⟨1, ![n]⟩ : Shape).BroadcastsInDim ⟨2, ![n, 1]⟩ ![0])
    (h2 : (⟨2, ![n, 1]⟩ : Shape).BroadcastsInDim ⟨2, ![n, k]⟩ ![0, 1])
    (h3 : (⟨1, ![o]⟩ : Shape).BroadcastsInDim ⟨2, ![1, o]⟩ ![1])
    (h4 : (⟨2, ![1, o]⟩ : Shape).BroadcastsInDim ⟨2, ![n, o]⟩ ![0, 1])
    (h5 : (⟨0, ![]⟩ : Shape).BroadcastsInDim ⟨2, ![n, o]⟩ ![])
    (hv : (⟨1, ![n]⟩ : Shape).ShapeCasts ⟨2, ![n, 1]⟩) (hb : (⟨1, ![o]⟩ : Shape).ShapeCasts ⟨2, ![1, o]⟩) :
    maximumf (addf (Host.dotGeneral d none
          (mulf A (broadcastInDim ⟨2, ![n, k]⟩ ![0, 1] h2 (broadcastInDim ⟨2, ![n, 1]⟩ ![0] h1 v))) W)
        (broadcastInDim ⟨2, ![n, o]⟩ ![0, 1] h4 (broadcastInDim ⟨2, ![1, o]⟩ ![1] h3 b)))
      (broadcastInDim ⟨2, ![n, o]⟩ ![] h5 (constant ⟨0, ![]⟩ .f32 0x00000000#32))
    = layer A (shapeCast ⟨2, ![n, 1]⟩ v hv) W (shapeCast ⟨2, ![1, o]⟩ b hb) := funext fun j => by
  obtain ⟨r, c, rfl⟩ : ∃ (r : Fin n) (c : Fin o), j = ix2 r c := ⟨j 0, j 1, eq_ix2 j⟩
  rw [host_at d hlc hrc hln hrn hlb hrb A v W b h1 h2 h3 h4 h5 r c, layer_apply,
    Cert.LibKeepdims.shapeCast_a_a1_apply]
  simp only [shapeCast_a_1a_apply]

end Cert.LibGraphLayer

end
-- ==== Proof.HostChain.lean ====
/-
  The whole-array side of a graph-convolution network, as functions of the arrays.

  From the edge list `e : [2, E]`: the source row `src` and the destination row `dst`; for a row of node numbers `idx` the
  scale `scale idx = rsqrt (max (degree, 1))`, the degree being a scatter-add of ones over `idx`; the aggregation
  `aggregate h = scatter-add over dst of the rows of (h · out-scale) gathered at src` (a negative node number first wrapped
  by the node count), at feature widths 100 and 128; and the dense stage `relu ((agg · in-scale) · W + b)` at the three
  layer widths. The reference's result is the three layers composed (`reference_eq`), and each dense stage is the
  array `layer` read entry by entry (`dense1_eq` …).
-/
import proofs.«173624_j39702677684864_1_alg».proof.Proof.Gen.ReferenceIdeal.Run
import proofs.«173624_j39702677684864_1_alg».proof.Proof.LibGraphLayer

noncomputable section

namespace Cert.HostChain

open Cert.ReferenceIdeal Cert.ReferenceIdeal.Gen Idealize.ShloMosaic Idealize.ShloMosaic.TcCoe Idealize.SL.Sem

/-- The edge list's first row: the source node of every edge. -/
def src (e : IVec S2x640000 32) : IVec S640000 32 :=
  shapeCast _ (extractStridedSlice S1x640000 ![0, 0] e slices_S2x640000_S1x640000_0_0) shapeCasts_S1x640000_S640000

/-- The edge list's second row: the destination node of every edge. -/
def dst (e : IVec S2x640000 32) : IVec S640000 32 :=
  shapeCast _ (extractStridedSlice S1x640000 ![1, 0] e slices_S2x640000_S1x640000_1_0) shapeCasts_S1x640000_S640000

/-- One over the square root of a node's degree (at least one) in the row of node numbers `idx`. -/
def scale (idx : IVec S640000 32) : FVec Ideal S100000 .f32 :=
  Host.rsqrt (maximumf (Host.scatterAdd scatter_S100000_S640000x1_S640000_n_0_0_1 (broadcastInDim S100000 ![] bcast_S_S100000 (constant S_ .f32 0x00000000#32)) (broadcastInDim S640000x1 ![0] bcast_S640000_S640000x1_0 idx) (broadcastInDim S640000 ![] bcast_S_S640000 (constant S_ .f32 0x3F800000#32))) (broadcastInDim S100000 ![] bcast_S_S100000 (constant S_ .f32 0x3F800000#32)))

/-- A node number below zero counts from the end: the node count is added to it. -/
def wrap (s : IVec S640000 32) : IVec S640000 32 :=
  select (cmpi .slt s (broadcastInDim S640000 ![] bcast_S_S640000 (constantI S_ 32 0#32))) (addi s (broadcastInDim S640000 ![] bcast_S_S640000 (constantI S_ 32 100000#32))) s

/-- The neighbourhood sum at feature width 100: rows of `h · out-scale` gathered at the sources, added up at the destinations. -/
def aggregate100 (h : FVec Ideal S100000x100 .f32) (no : FVec Ideal S100000 .f32) (s d : IVec S640000 32) : FVec Ideal S100000x100 .f32 :=
  Host.scatterAdd scatter_S100000x100_S640000x1_S640000x100_1_0_0_1 (broadcastInDim S100000x100 ![] bcast_S_S100000x100 (constant S_ .f32 0x00000000#32)) (broadcastInDim S640000x1 ![0] bcast_S640000_S640000x1_0 d) (Host.gather gather_S100000x100_S640000x1_S640000x100_1_0_n_n_0_1_1100 (mulf h (broadcastInDim S100000x100 ![0, 1] bcast_S100000x1_S100000x100_0_1 (broadcastInDim S100000x1 ![0] bcast_S100000_S100000x1_0 no))) (broadcastInDim S640000x1 ![0] bcast_S640000_S640000x1_0 (wrap s)))

/-- The neighbourhood sum at feature width 128. -/
def aggregate128 (h : FVec Ideal S100000x128 .f32) (no : FVec Ideal S100000 .f32) (s d : IVec S640000 32) : FVec Ideal S100000x128 .f32 :=
  Host.scatterAdd scatter_S100000x128_S640000x1_S640000x128_1_0_0_1 (broadcastInDim S100000x128 ![] bcast_S_S100000x128 (constant S_ .f32 0x00000000#32)) (broadcastInDim S640000x1 ![0] bcast_S640000_S640000x1_0 d) (Host.gather gather_S100000x128_S640000x1_S640000x128_1_0_n_n_0_1_1128 (mulf h (broadcastInDim S100000x128 ![0, 1] bcast_S100000x1_S100000x128_0_1 (broadcastInDim S100000x1 ![0] bcast_S100000_S100000x1_0 no))) (broadcastInDim S640000x1 ![0] bcast_S640000_S640000x1_0 (wrap s)))

/-- The first layer's dense stage: 100 features in, 128 out. -/
def dense1 (a : FVec Ideal S100000x100 .f32) (ni : FVec Ideal S100000 .f32) (W : FVec Ideal S100x128 .f32) (b : FVec Ideal S128 .f32) : FVec Ideal S100000x128 .f32 :=
  maximumf (addf (Host.dotGeneral dot_S100000x100_S100x128_S100000x128_1_0_0_1_n_n none (mulf a (broadcastInDim S100000x100 ![0, 1] bcast_S100000x1_S100000x100_0_1 (broadcastInDim S100000x1 ![0] bcast_S100000_S100000x1_0 ni))) W) (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The second layer's dense stage: 128 features in, 128 out. -/
def dense2 (a : FVec Ideal S100000x128 .f32) (ni : FVec Ideal S100000 .f32) (W : FVec Ideal S128x128 .f32) (b : FVec Ideal S128 .f32) : FVec Ideal S100000x128 .f32 :=
  maximumf (addf (Host.dotGeneral dot_S100000x128_S128x128_S100000x128_1_0_0_1_n_n none (mulf a (broadcastInDim S100000x128 ![0, 1] bcast_S100000x1_S100000x128_0_1 (broadcastInDim S100000x1 ![0] bcast_S100000_S100000x1_0 ni))) W) (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The third layer's dense stage: 128 features in, 47 out. -/
def dense3 (a : FVec Ideal S100000x128 .f32) (ni : FVec Ideal S100000 .f32) (W : FVec Ideal S128x47 .f32) (b : FVec Ideal S47 .f32) : FVec Ideal S100000x47 .f32 :=
  maximumf (addf (Host.dotGeneral dot_S100000x128_S128x47_S100000x47_1_0_0_1_n_n none (mulf a (broadcastInDim S100000x128 ![0, 1] bcast_S100000x1_S100000x128_0_1 (broadcastInDim S100000x1 ![0] bcast_S100000_S100000x1_0 ni))) W) (broadcastInDim S100000x47 ![0, 1] bcast_S1x47_S100000x47_0_1 (broadcastInDim S1x47 ![1] bcast_S47_S1x47_1 b))) (broadcastInDim S100000x47 ![] bcast_S_S100000x47 (constant S_ .f32 0x00000000#32))

/-- The three layers composed: each layer aggregates the layer before and applies its dense stage. -/
def network (x : FVec Ideal S100000x100 .f32) (e : IVec S2x640000 32) (W1 : FVec Ideal S100x128 .f32) (b1 : FVec Ideal S128 .f32)
    (W2 : FVec Ideal S128x128 .f32) (b2 : FVec Ideal S128 .f32) (W3 : FVec Ideal S128x47 .f32) (b3 : FVec Ideal S47 .f32) : FVec Ideal S100000x47 .f32 :=
  dense3 (aggregate128 (dense2 (aggregate128 (dense1 (aggregate100 x (scale (src e)) (src e) (dst e)) (scale (dst e)) W1 b1)
    (scale (src e)) (src e) (dst e)) (scale (dst e)) W2 b2) (scale (src e)) (src e) (dst e)) (scale (dst e)) W3 b3

set_option maxRecDepth 8192 in
/-- The reference's result is `network` of its arguments: the same operations in the same order, the two scales
    computed anew in every layer from the same edge rows. -/
theorem reference_eq (m : (ℓ : Loc nD τ sig) → Buf (Elt Ideal) ℓ) (c : Dev nD) :
    Cert.ReferenceIdeal.Value.res_main_v105 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v105 network dense3 dense2 dense1 aggregate128 aggregate100 wrap scale src dst
  rfl

/-! ## Each dense stage, entry by entry -/

theorem dense1_eq (a : FVec Ideal S100000x100 .f32) (ni : FVec Ideal S100000 .f32) (W : FVec Ideal S100x128 .f32) (b : FVec Ideal S128 .f32)
    (hv : S100000.ShapeCasts S100000x1) (hb : S128.ShapeCasts S1x128) :
    dense1 a ni W b = Cert.LibGraphLayer.layer a (shapeCast S100000x1 ni hv) W (shapeCast S1x128 b hb) :=
  Cert.LibGraphLayer.host_eq dot_S100000x100_S100x128_S100000x128_1_0_0_1_n_n rfl rfl rfl rfl rfl rfl a ni W b _ _ _ _ _ hv hb

theorem dense2_eq (a : FVec Ideal S100000x128 .f32) (ni : FVec Ideal S100000 .f32) (W : FVec Ideal S128x128 .f32) (b : FVec Ideal S128 .f32)
    (hv : S100000.ShapeCasts S100000x1) (hb : S128.ShapeCasts S1x128) :
    dense2 a ni W b = Cert.LibGraphLayer.layer a (shapeCast S100000x1 ni hv) W (shapeCast S1x128 b hb) :=
  Cert.LibGraphLayer.host_eq dot_S100000x128_S128x128_S100000x128_1_0_0_1_n_n rfl rfl rfl rfl rfl rfl a ni W b _ _ _ _ _ hv hb

theorem dense3_eq (a : FVec Ideal S100000x128 .f32) (ni : FVec Ideal S100000 .f32) (W : FVec Ideal S128x47 .f32) (b : FVec Ideal S47 .f32)
    (hv : S100000.ShapeCasts S100000x1) (hb : S47.ShapeCasts S1x47) :
    dense3 a ni W b = Cert.LibGraphLayer.layer a (shapeCast S100000x1 ni hv) W (shapeCast S1x47 b hb) :=
  Cert.LibGraphLayer.host_eq dot_S100000x128_S128x47_S100000x47_1_0_0_1_n_n rfl rfl rfl rfl rfl rfl a ni W b _ _ _ _ _ hv hb

end Cert.HostChain

end
-- ==== Proof.KernelRun.lean ====
/-
  The idealized kernel's run with its result named.

  @main is three tiled regions among stretches of whole-array operations. Every weakly fair execution terminates, faults
  nowhere, leaves the eight argument arrays as launched, and leaves the result array at the contents the last region's
  write-backs give it: the value the fold of buffer contents through the six segments has at the result's buffer.
-/
import proofs.«173624_j39702677684864_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the six segments: the last thread state holds every unscoped buffer at the last boundary's contents,
    so the result's buffer is read off it beside the eight arguments. -/
theorem run_named : θ_run defs (onTc (τ := τ) (main (F := F))) ⟨m, fun _ => 0, ρ⟩ (fun r => ∀ c : Dev nD,
      r.2.mem ((c.tc : Thread nD τ).loc main_v64) = W6 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v64 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Named

end
-- ==== Proof.LibTileRead.lean ====
/-
  A tile of the dense stage is the dense stage of the tiles.

  When the nodes are cut into tiles of consecutive rows, the weights and the bias read whole by every tile, entry `(p, q)` of
  a tile's dense stage is entry `(r, q)` of the whole array's, `r` the node that row `p` of the tile holds: the entry
  reads row `r` of the aggregated features and of the scale column and nothing else of them.
-/
import proofs.«173624_j39702677684864_1_alg».proof.Proof.LibGraphLayer

noncomputable section

namespace Cert.LibGraphLayer

open Idealize.ShloMosaic Idealize.ShloMosaic.ValueIdx

/-- `layer` of operands read through index maps `e0 … e3` is, at `(p, q)`, `layer` of the operands at the index `e4`
    sends `(p, q)` to, when the maps send row `p` to row `r` and keep the weights' and the bias's indices. -/
theorem layer_block {n k o tm : ℕ} (A : FVec Ideal ⟨2, ![n, k]⟩ .f32) (s : FVec Ideal ⟨2, ![n, 1]⟩ .f32)
    (W : FVec Ideal ⟨2, ![k, o]⟩ .f32) (b : FVec Ideal ⟨2, ![1, o]⟩ .f32)
    (e0 : (⟨2, ![tm, k]⟩ : Shape).Idx → (⟨2, ![n, k]⟩ : Shape).Idx)
    (e1 : (⟨2, ![tm, 1]⟩ : Shape).Idx → (⟨2, ![n, 1]⟩ : Shape).Idx)
    (e2 : (⟨2, ![k, o]⟩ : Shape).Idx → (⟨2, ![k, o]⟩ : Shape).Idx)
    (e3 : (⟨2, ![1, o]⟩ : Shape).Idx → (⟨2, ![1, o]⟩ : Shape).Idx)
    (e4 : (⟨2, ![tm, o]⟩ : Shape).Idx → (⟨2, ![n, o]⟩ : Shape).Idx)
    (p : Fin tm) (q : Fin o) (r : Fin n)
    (h4 : e4 (ix2 p q) = ix2 r q)
    (h0 : ∀ h : Fin k, e0 (ix2 p h) = ix2 r h)
    (h1 : e1 (ix2 p (0 : Fin 1)) = ix2 r (0 : Fin 1))
    (h2 : ∀ (h : Fin k) (c : Fin o), e2 (ix2 h c) = ix2 h c)
    (h3 : ∀ c : Fin o, e3 (ix2 (0 : Fin 1) c) = ix2 (0 : Fin 1) c) :
    layer (fun y => A (e0 y)) (fun y => s (e1 y)) (fun y => W (e2 y)) (fun y => b (e3 y)) (ix2 p q)
      = layer A s W b (e4 (ix2 p q)) := by
  rw [h4, layer_apply, layer_apply]
  simp only [h0, h1, h2, h3]

end Cert.LibGraphLayer

end
-- ==== Proof.Region0.lean ====
/-
  Region 0: the tiled dense stage of layer 1, as one array.

  The region cuts the 100000 nodes into 20 tiles of 5000 consecutive rows; point `t` reads rows `5000 t … 5000 t + 4999` of
  the aggregated features and of the scale column, the whole weight matrix and the whole bias row, and writes back rows
  `5000 t … 5000 t + 4999` of the result. What a point writes is `layer` of its four blocks, which is the block of
  `layer` of the four arrays; the 20 blocks cover the result, so after the region the result array is `layer` of the
  arrays as the region found them.
-/
import proofs.«173624_j39702677684864_1_alg».proof.Proof.Gen.KernelIdeal.Frame
import proofs.«173624_j39702677684864_1_alg».proof.Proof.LibTileRead
import Idealize.ShloMosaic.Lib.Pipeline.Value

set_option maxRecDepth 16384

noncomputable section

namespace Cert.KernelIdeal.Tile0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is `layer` of the four loaded blocks. -/
theorem pay_eq (x0 : Vec Ideal S5000x100 .f32) (x1 : Vec Ideal S5000x1 .f32) (x2 : Vec Ideal S100x128 .f32) (x3 : Vec Ideal S1x128 .f32) :
    k0_pay1 x0 x1 x2 x3 = Cert.LibGraphLayer.layer x0 x1 x2 x3 := by
  unfold k0_pay1
  exact Cert.LibGraphLayer.tile_eq dot_S5000x100_S100x128_S5000x128_1_0_0_1_n_n rfl rfl rfl rfl rfl rfl x0 x1 x2 x3 _ _ _ _ _ _ _

/-- The printed index maps over the grid: the two row-tiled inputs and the output move with the point along the rows,
    the weights and the bias stay at block zero, and nothing moves along the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The four arrays' `layer`, as the region finds them. -/
abbrev whole (c : Dev nD) : Buf (Elt Ideal) ((c : Thread nD τ).loc main_v32) :=
  Cert.LibGraphLayer.layer (V c main_v29) (V c main_v30) (V c main_arg2) (V c main_v31)

/-- What point `t` writes back is block `t` of `whole`. -/
theorem flushed_eq (c : Dev nD) (t : Fin cfg0.N) :
    (dat0 V c).flushed 4 t = ((cfg0.win 4).blk t).view.read (Elt Ideal) (whole V c) := by
  show (cfg0.win 4).cut (grid0.coords t) ((dat0 V c).after 4 t) = _
  rw [after0_4]
  unfold out0_4
  rw [View.canon_unit_zero hz]
  simp only [View.ld_unit_zero (S := S5000x100) hz, View.ld_unit_zero (S := S5000x1) hz, View.ld_unit_zero (S := S100x128) hz,
    View.ld_unit_zero (S := S1x128) hz]
  rw [pay_eq]
  obtain ⟨e00, e01, e10, e11, e20, e21, e30, e31, e40, e41⟩ := idx_facts t
  have hN : cfg0.N = 20 := N_0
  have ht : t.val < 20 := hN ▸ t.isLt
  funext j
  obtain ⟨p, q, rfl⟩ : ∃ (p : Fin 5000) (q : Fin 128), j = ix2 p q := ⟨j 0, j 1, eq_ix2 j⟩
  show Cert.LibGraphLayer.layer (fun y => V c main_v29 (((cfg0.win 0).blk t).view.emb y)) (fun y => V c main_v30 (((cfg0.win 1).blk t).view.emb y))
      (fun y => V c main_arg2 (((cfg0.win 2).blk t).view.emb y)) (fun y => V c main_v31 (((cfg0.win 3).blk t).view.emb y)) (ix2 p q)
    = Cert.LibGraphLayer.layer (V c main_v29) (V c main_v30) (V c main_arg2) (V c main_v31) (((cfg0.win 4).blk t).view.emb (ix2 p q))
  have hp : p.val < 5000 := p.isLt
  refine Cert.LibGraphLayer.layer_block (V c main_v29) (V c main_v30) (V c main_arg2) (V c main_v31) _ _ _ _ _ p q
    ⟨t.val * 5000 + p.val, by omega⟩ ?_ ?_ ?_ ?_ ?_
  · funext a; apply Fin.ext
    match a with
    | ⟨0, _⟩ => show win0_4.index t (0 : Fin 2) * 5000 + 1 * p.val = t.val * 5000 + p.val; omega
    | ⟨1, _⟩ => show win0_4.index t (1 : Fin 2) * 128 + 1 * q.val = q.val; omega
  · intro h; funext a; apply Fin.ext
    match a with
    | ⟨0, _⟩ => show win0_0.index t (0 : Fin 2) * 5000 + 1 * p.val = t.val * 5000 + p.val; omega
    | ⟨1, _⟩ => show win0_0.index t (1 : Fin 2) * 100 + 1 * h.val = h.val; omega
  · funext a; apply Fin.ext
    match a with
    | ⟨0, _⟩ => show win0_1.index t (0 : Fin 2) * 5000 + 1 * p.val = t.val * 5000 + p.val; omega
    | ⟨1, _⟩ => show win0_1.index t (1 : Fin 2) * 1 + 1 * 0 = 0; omega
  · intro h c'; funext a; apply Fin.ext
    match a with
    | ⟨0, _⟩ => show win0_2.index t (0 : Fin 2) * 100 + 1 * h.val = h.val; omega
    | ⟨1, _⟩ => show win0_2.index t (1 : Fin 2) * 128 + 1 * c'.val = c'.val; omega
  · intro c'; funext a; apply Fin.ext
    match a with
    | ⟨0, _⟩ => show win0_3.index t (0 : Fin 2) * 1 + 1 * 0 = 0; omega
    | ⟨1, _⟩ => show win0_3.index t (1 : Fin 2) * 128 + 1 * c'.val = c'.val; omega

/-- An index of the result array is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v32).slice (win0_4.rect t)).set ↔ _
  rw [View.set_slice_whole, Rect.mem_set_unit]
  exact Iff.rfl

/-- Every index of the result array is in the block of the point its row falls in. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, -, -, -, -, e40, e41⟩ := idx_facts ⟨(i 0).val / 5000, hlt⟩
  refine ⟨⟨(i 0).val / 5000, hlt⟩, flush0_4 _, ?_⟩
  rw [mem_blk]
  intro a
  match a with
  | ⟨0, _⟩ =>
    show win0_4.index ⟨(i 0).val / 5000, hlt⟩ (0 : Fin 2) * 5000 ≤ (i 0).val ∧ (i 0).val < win0_4.index ⟨(i 0).val / 5000, hlt⟩ (0 : Fin 2) * 5000 + 5000
    rw [e40]; show (i 0).val / 5000 * 5000 ≤ (i 0).val ∧ (i 0).val < (i 0).val / 5000 * 5000 + 5000; omega
  | ⟨1, _⟩ =>
    show win0_4.index ⟨(i 0).val / 5000, hlt⟩ (1 : Fin 2) * 128 ≤ (i 1).val ∧ (i 1).val < win0_4.index ⟨(i 0).val / 5000, hlt⟩ (1 : Fin 2) * 128 + 128
    rw [e41]; omega

/-- After the region the result array is `layer` of the four arrays as the region found them. -/
theorem final (c : Dev nD) : (dat0 V c).arrAt 4 cfg0.N = whole V c :=
  (dat0 V c).arrAt_eq_of_cover 4 (whole V c) (fun t _ => flushed_eq V c t) (cover)

end Cert.KernelIdeal.Tile0

end
-- ==== Proof.Region1.lean ====
/-
  Region 1: the tiled dense stage of layer 2, as one array.

  The region cuts the 100000 nodes into 20 tiles of 5000 consecutive rows; point `t` reads rows `5000 t … 5000 t + 4999` of
  the aggregated features and of the scale column, the whole weight matrix and the whole bias row, and writes back rows
  `5000 t … 5000 t + 4999` of the result. What a point writes is `layer` of its four blocks, which is the block of
  `layer` of the four arrays; the 20 blocks cover the result, so after the region the result array is `layer` of the
  arrays as the region found them.
-/
import proofs.«173624_j39702677684864_1_alg».proof.Proof.Gen.KernelIdeal.Frame
import proofs.«173624_j39702677684864_1_alg».proof.Proof.LibTileRead
import Idealize.ShloMosaic.Lib.Pipeline.Value

set_option maxRecDepth 16384

noncomputable section

namespace Cert.KernelIdeal.Tile1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is `layer` of the four loaded blocks. -/
theorem pay_eq (x0 : Vec Ideal S5000x128 .f32) (x1 : Vec Ideal S5000x1 .f32) (x2 : Vec Ideal S128x128 .f32) (x3 : Vec Ideal S1x128 .f32) :
    k1_pay1 x0 x1 x2 x3 = Cert.LibGraphLayer.layer x0 x1 x2 x3 := by
  unfold k1_pay1
  exact Cert.LibGraphLayer.tile_eq dot_S5000x128_S128x128_S5000x128_1_0_0_1_n_n rfl rfl rfl rfl rfl rfl x0 x1 x2 x3 _ _ _ _ _ _ _

/-- The printed index maps over the grid: the two row-tiled inputs and the output move with the point along the rows,
    the weights and the bias stay at block zero, and nothing moves along the columns. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The four arrays' `layer`, as the region finds them. -/
abbrev whole (c : Dev nD) : Buf (Elt Ideal) ((c : Thread nD τ).loc main_v48) :=
  Cert.LibGraphLayer.layer (V c main_v45) (V c main_v46) (V c main_arg4) (V c main_v47)

/-- What point `t` writes back is block `t` of `whole`. -/
theorem flushed_eq (c : Dev nD) (t : Fin cfg1.N) :
    (dat1 V c).flushed 4 t = ((cfg1.win 4).blk t).view.read (Elt Ideal) (whole V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S128x128) hz,
    View.ld_unit_zero (S := S1x128) hz]
  rw [pay_eq]
  obtain ⟨e00, e01, e10, e11, e20, e21, e30, e31, e40, e41⟩ := idx_facts t
  have hN : cfg1.N = 20 := N_1
  have ht : t.val < 20 := hN ▸ t.isLt
  funext j
  obtain ⟨p, q, rfl⟩ : ∃ (p : Fin 5000) (q : Fin 128), j = ix2 p q := ⟨j 0, j 1, eq_ix2 j⟩
  show Cert.LibGraphLayer.layer (fun y => V c main_v45 (((cfg1.win 0).blk t).view.emb y)) (fun y => V c main_v46 (((cfg1.win 1).blk t).view.emb y))
      (fun y => V c main_arg4 (((cfg1.win 2).blk t).view.emb y)) (fun y => V c main_v47 (((cfg1.win 3).blk t).view.emb y)) (ix2 p q)
    = Cert.LibGraphLayer.layer (V c main_v45) (V c main_v46) (V c main_arg4) (V c main_v47) (((cfg1.win 4).blk t).view.emb (ix2 p q))
  have hp : p.val < 5000 := p.isLt
  refine Cert.LibGraphLayer.layer_block (V c main_v45) (V c main_v46) (V c main_arg4) (V c main_v47) _ _ _ _ _ p q
    ⟨t.val * 5000 + p.val, by omega⟩ ?_ ?_ ?_ ?_ ?_
  · funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  · intro h; funext a; apply Fin.ext
    match a with
    | ⟨0, _⟩ => show win1_0.index t (0 : Fin 2) * 5000 + 1 * p.val = t.val * 5000 + p.val; omega
    | ⟨1, _⟩ => show win1_0.index t (1 : Fin 2) * 128 + 1 * h.val = h.val; omega
  · funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  · intro h c'; funext a; apply Fin.ext
    match a with
    | ⟨0, _⟩ => show win1_2.index t (0 : Fin 2) * 128 + 1 * h.val = h.val; omega
    | ⟨1, _⟩ => show win1_2.index t (1 : Fin 2) * 128 + 1 * c'.val = c'.val; omega
  · intro c'; funext a; apply Fin.ext
    match a with
    | ⟨0, _⟩ => show win1_3.index t (0 : Fin 2) * 1 + 1 * 0 = 0; omega
    | ⟨1, _⟩ => show win1_3.index t (1 : Fin 2) * 128 + 1 * c'.val = c'.val; omega

/-- An index of the result array is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v48).slice (win1_4.rect t)).set ↔ _
  rw [View.set_slice_whole, Rect.mem_set_unit]
  exact Iff.rfl

/-- Every index of the result array is in the block of the point its row falls in. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, -, -, -, -, -, e40, e41⟩ := idx_facts ⟨(i 0).val / 5000, hlt⟩
  refine ⟨⟨(i 0).val / 5000, hlt⟩, flush1_4 _, ?_⟩
  rw [mem_blk]
  intro a
  match a with
  | ⟨0, _⟩ =>
    show win1_4.index ⟨(i 0).val / 5000, hlt⟩ (0 : Fin 2) * 5000 ≤ (i 0).val ∧ (i 0).val < win1_4.index ⟨(i 0).val / 5000, hlt⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, hlt⟩ (1 : Fin 2) * 128 ≤ (i 1).val ∧ (i 1).val < win1_4.index ⟨(i 0).val / 5000, hlt⟩ (1 : Fin 2) * 128 + 128
    rw [e41]; omega

/-- After the region the result array is `layer` of the four arrays as the region found them. -/
theorem final (c : Dev nD) : (dat1 V c).arrAt 4 cfg1.N = whole V c :=
  (dat1 V c).arrAt_eq_of_cover 4 (whole V c) (fun t _ => flushed_eq V c t) (cover)

end Cert.KernelIdeal.Tile1

end
-- ==== Proof.Region2.lean ====
/-
  Region 2: the tiled dense stage of layer 3, as one array.

  The region cuts the 100000 nodes into 20 tiles of 5000 consecutive rows; point `t` reads rows `5000 t … 5000 t + 4999` of
  the aggregated features and of the scale column, the whole weight matrix and the whole bias row, and writes back rows
  `5000 t … 5000 t + 4999` of the result. What a point writes is `layer` of its four blocks, which is the block of
  `layer` of the four arrays; the 20 blocks cover the result, so after the region the result array is `layer` of the
  arrays as the region found them.
-/
import proofs.«173624_j39702677684864_1_alg».proof.Proof.Gen.KernelIdeal.Frame
import proofs.«173624_j39702677684864_1_alg».proof.Proof.LibTileRead
import Idealize.ShloMosaic.Lib.Pipeline.Value

set_option maxRecDepth 16384

noncomputable section

namespace Cert.KernelIdeal.Tile2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is `layer` of the four loaded blocks. -/
theorem pay_eq (x0 : Vec Ideal S5000x128 .f32) (x1 : Vec Ideal S5000x1 .f32) (x2 : Vec Ideal S128x47 .f32) (x3 : Vec Ideal S1x47 .f32) :
    k2_pay1 x0 x1 x2 x3 = Cert.LibGraphLayer.layer x0 x1 x2 x3 := by
  unfold k2_pay1
  exact Cert.LibGraphLayer.tile_eq dot_S5000x128_S128x47_S5000x47_1_0_0_1_n_n rfl rfl rfl rfl rfl rfl x0 x1 x2 x3 _ _ _ _ _ _ _

/-- The printed index maps over the grid: the two row-tiled inputs and the output move with the point along the rows,
    the weights and the bias stay at block zero, and nothing moves along the columns. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The four arrays' `layer`, as the region finds them. -/
abbrev whole (c : Dev nD) : Buf (Elt Ideal) ((c : Thread nD τ).loc main_v64) :=
  Cert.LibGraphLayer.layer (V c main_v61) (V c main_v62) (V c main_arg6) (V c main_v63)

/-- What point `t` writes back is block `t` of `whole`. -/
theorem flushed_eq (c : Dev nD) (t : Fin cfg2.N) :
    (dat2 V c).flushed 4 t = ((cfg2.win 4).blk t).view.read (Elt Ideal) (whole V c) := by
  show (cfg2.win 4).cut (grid2.coords t) ((dat2 V c).after 4 t) = _
  rw [after2_4]
  unfold out2_4
  rw [View.canon_unit_zero hz]
  simp only [View.ld_unit_zero (S := S5000x128) hz, View.ld_unit_zero (S := S5000x1) hz, View.ld_unit_zero (S := S128x47) hz,
    View.ld_unit_zero (S := S1x47) hz]
  rw [pay_eq]
  obtain ⟨e00, e01, e10, e11, e20, e21, e30, e31, e40, e41⟩ := idx_facts t
  have hN : cfg2.N = 20 := N_2
  have ht : t.val < 20 := hN ▸ t.isLt
  funext j
  obtain ⟨p, q, rfl⟩ : ∃ (p : Fin 5000) (q : Fin 47), j = ix2 p q := ⟨j 0, j 1, eq_ix2 j⟩
  show Cert.LibGraphLayer.layer (fun y => V c main_v61 (((cfg2.win 0).blk t).view.emb y)) (fun y => V c main_v62 (((cfg2.win 1).blk t).view.emb y))
      (fun y => V c main_arg6 (((cfg2.win 2).blk t).view.emb y)) (fun y => V c main_v63 (((cfg2.win 3).blk t).view.emb y)) (ix2 p q)
    = Cert.LibGraphLayer.layer (V c main_v61) (V c main_v62) (V c main_arg6) (V c main_v63) (((cfg2.win 4).blk t).view.emb (ix2 p q))
  have hp : p.val < 5000 := p.isLt
  refine Cert.LibGraphLayer.layer_block (V c main_v61) (V c main_v62) (V c main_arg6) (V c main_v63) _ _ _ _ _ p q
    ⟨t.val * 5000 + p.val, by omega⟩ ?_ ?_ ?_ ?_ ?_
  · funext a; apply Fin.ext
    match a with
    | ⟨0, _⟩ => show win2_4.index t (0 : Fin 2) * 5000 + 1 * p.val = t.val * 5000 + p.val; omega
    | ⟨1, _⟩ => show win2_4.index t (1 : Fin 2) * 47 + 1 * q.val = q.val; omega
  · intro h; funext a; apply Fin.ext
    match a with
    | ⟨0, _⟩ => show win2_0.index t (0 : Fin 2) * 5000 + 1 * p.val = t.val * 5000 + p.val; omega
    | ⟨1, _⟩ => show win2_0.index t (1 : Fin 2) * 128 + 1 * h.val = h.val; omega
  · funext a; apply Fin.ext
    match a with
    | ⟨0, _⟩ => show win2_1.index t (0 : Fin 2) * 5000 + 1 * p.val = t.val * 5000 + p.val; omega
    | ⟨1, _⟩ => show win2_1.index t (1 : Fin 2) * 1 + 1 * 0 = 0; omega
  · intro h c'; funext a; apply Fin.ext
    match a with
    | ⟨0, _⟩ => show win2_2.index t (0 : Fin 2) * 128 + 1 * h.val = h.val; omega
    | ⟨1, _⟩ => show win2_2.index t (1 : Fin 2) * 47 + 1 * c'.val = c'.val; omega
  · intro c'; funext a; apply Fin.ext
    match a with
    | ⟨0, _⟩ => show win2_3.index t (0 : Fin 2) * 1 + 1 * 0 = 0; omega
    | ⟨1, _⟩ => show win2_3.index t (1 : Fin 2) * 47 + 1 * c'.val = c'.val; omega

/-- An index of the result array is in point `t`'s block iff each coordinate is in the block's range on its axis. -/
theorem mem_blk (t : Fin cfg2.N) (i : S100000x47.Idx) :
    i ∈ ((cfg2.win 4).blk t).view.set ↔ ∀ a : Fin 2, win2_4.index t a * S5000x47.size a ≤ (i a).val ∧ (i a).val < win2_4.index t a * S5000x47.size a + S5000x47.size a := by
  show i ∈ ((View.whole main_v64).slice (win2_4.rect t)).set ↔ _
  rw [View.set_slice_whole, Rect.mem_set_unit]
  exact Iff.rfl

/-- Every index of the result array is in the block of the point its row falls in. -/
theorem cover (i : S100000x47.Idx) : ∃ t : Fin cfg2.N, (cfg2.win 4).flush t = true ∧ i ∈ ((cfg2.win 4).blk t).view.set := by
  have hi0 : (i 0).val < 100000 := (i 0).isLt
  have hi1 : (i 1).val < 47 := (i 1).isLt
  have hN : cfg2.N = 20 := N_2
  have hlt : (i 0).val / 5000 < cfg2.N := by rw [hN]; omega
  obtain ⟨-, -, -, -, -, -, -, -, e40, e41⟩ := idx_facts ⟨(i 0).val / 5000, hlt⟩
  refine ⟨⟨(i 0).val / 5000, hlt⟩, flush2_4 _, ?_⟩
  rw [mem_blk]
  intro a
  match a with
  | ⟨0, _⟩ =>
    show win2_4.index ⟨(i 0).val / 5000, hlt⟩ (0 : Fin 2) * 5000 ≤ (i 0).val ∧ (i 0).val < win2_4.index ⟨(i 0).val / 5000, hlt⟩ (0 : Fin 2) * 5000 + 5000
    rw [e40]; show (i 0).val / 5000 * 5000 ≤ (i 0).val ∧ (i 0).val < (i 0).val / 5000 * 5000 + 5000; omega
  | ⟨1, _⟩ =>
    show win2_4.index ⟨(i 0).val / 5000, hlt⟩ (1 : Fin 2) * 47 ≤ (i 1).val ∧ (i 1).val < win2_4.index ⟨(i 0).val / 5000, hlt⟩ (1 : Fin 2) * 47 + 47
    rw [e41]; omega

/-- After the region the result array is `layer` of the four arrays as the region found them. -/
theorem final (c : Dev nD) : (dat2 V c).arrAt 4 cfg2.N = whole V c :=
  (dat2 V c).arrAt_eq_of_cover 4 (whole V c) (fun t _ => flushed_eq V c t) (cover)

end Cert.KernelIdeal.Tile2

end
-- ==== Proof.HostStage0.lean ====
/-
  The whole-array operations before the first tiled region, read at the buffers the rest of the program uses.

  From any buffer contents `W`: the two edge rows, the two degree scales, the first layer's aggregated features, the
  in-scale recast as a column and the first bias recast as a row are the functions of the arguments that the shared
  definitions name; the weight and bias arguments are untouched.
-/
import proofs.«173624_j39702677684864_1_alg».proof.Proof.Gen.KernelIdeal.Launch
import proofs.«173624_j39702677684864_1_alg».proof.Proof.HostChain
import Idealize.ShloMosaic.Lib.StableHlo.Run

set_option maxRecDepth 16384

noncomputable section

namespace Cert.KernelIdeal.Stage0

open Cert.KernelIdeal Cert.KernelIdeal.Gen Idealize.ShloMosaic Idealize.ShloMosaic.TcCoe Idealize.SL.Sem Idealize.ShloMosaic.StableHlo

-- any contents of the buffers before the stretch
variable (W : Valuation τ sig (Elt Ideal))

/-- The source row. -/
theorem v1 : (StableHlo.after hostOps0 W (Proc.devRef .tc main_v1) : S640000.Idx → BitVec 32) = Cert.HostChain.src (W (Proc.devRef .tc main_arg1)) := by
  unfold Cert.HostChain.src
  after_results_simp <;> rfl

/-- The destination row. -/
theorem v3 : (StableHlo.after hostOps0 W (Proc.devRef .tc main_v3) : S640000.Idx → BitVec 32) = Cert.HostChain.dst (W (Proc.devRef .tc main_arg1)) := by
  unfold Cert.HostChain.dst
  after_results_simp <;> rfl

/-- The out-degree scale. -/
theorem v13 : (StableHlo.after hostOps0 W (Proc.devRef .tc main_v13) : S100000.Idx → EReal) = Cert.HostChain.scale (Cert.HostChain.src (W (Proc.devRef .tc main_arg1))) := by
  unfold Cert.HostChain.scale Cert.HostChain.src
  after_results_simp <;> rfl

/-- The in-degree scale. -/
theorem v16 : (StableHlo.after hostOps0 W (Proc.devRef .tc main_v16) : S100000.Idx → EReal) = Cert.HostChain.scale (Cert.HostChain.dst (W (Proc.devRef .tc main_arg1))) := by
  unfold Cert.HostChain.scale Cert.HostChain.dst
  after_results_simp <;> rfl

/-- The first layer's aggregated features. -/
theorem v29 : (StableHlo.after hostOps0 W (Proc.devRef .tc main_v29) : S100000x100.Idx → EReal) = Cert.HostChain.aggregate100 (W (Proc.devRef .tc main_arg0)) (Cert.HostChain.scale (Cert.HostChain.src (W (Proc.devRef .tc main_arg1)))) (Cert.HostChain.src (W (Proc.devRef .tc main_arg1))) (Cert.HostChain.dst (W (Proc.devRef .tc main_arg1))) := by
  unfold Cert.HostChain.aggregate100 Cert.HostChain.wrap Cert.HostChain.scale Cert.HostChain.src Cert.HostChain.dst
  after_results_simp <;> rfl

/-- The in-degree scale as a column. -/
theorem v30 : (StableHlo.after hostOps0 W (Proc.devRef .tc main_v30) : S100000x1.Idx → EReal) = shapeCast S100000x1 (Cert.HostChain.scale (Cert.HostChain.dst (W (Proc.devRef .tc main_arg1)))) shapeCasts_S100000_S100000x1 := by
  unfold Cert.HostChain.scale Cert.HostChain.dst
  after_results_simp <;> rfl

/-- The first bias as a row. -/
theorem v31 : (StableHlo.after hostOps0 W (Proc.devRef .tc main_v31) : S1x128.Idx → EReal) = shapeCast S1x128 (W (Proc.devRef .tc main_arg3)) shapeCasts_S128_S1x128 := by
  after_results_simp <;> rfl

/-- The stretch writes nothing to `main_arg2`. -/
theorem a2 : (StableHlo.after hostOps0 W (Proc.devRef .tc main_arg2) : S100x128.Idx → EReal) = (W (Proc.devRef .tc main_arg2)) := by
  after_results_simp <;> rfl

/-- The stretch writes nothing to `main_arg4`. -/
theorem a4 : (StableHlo.after hostOps0 W (Proc.devRef .tc main_arg4) : S128x128.Idx → EReal) = (W (Proc.devRef .tc main_arg4)) := by
  after_results_simp <;> rfl

/-- The stretch writes nothing to `main_arg5`. -/
theorem a5 : (StableHlo.after hostOps0 W (Proc.devRef .tc main_arg5) : S128.Idx → EReal) = (W (Proc.devRef .tc main_arg5)) := by
  after_results_simp <;> rfl

/-- The stretch writes nothing to `main_arg6`. -/
theorem a6 : (StableHlo.after hostOps0 W (Proc.devRef .tc main_arg6) : S128x47.Idx → EReal) = (W (Proc.devRef .tc main_arg6)) := by
  after_results_simp <;> rfl

/-- The stretch writes nothing to `main_arg7`. -/
theorem a7 : (StableHlo.after hostOps0 W (Proc.devRef .tc main_arg7) : S47.Idx → EReal) = (W (Proc.devRef .tc main_arg7)) := by
  after_results_simp <;> rfl

end Cert.KernelIdeal.Stage0

end
-- ==== Proof.HostStage1.lean ====
/-
  The whole-array operations between tiled regions 0 and 1, read at the buffers the rest of the program uses.

  From any buffer contents `W`: the next layer's aggregated features are `aggregate128` of the previous region's result
  and of the scales and edge rows as `W` holds them; the in-scale is recast as a column and the layer's bias as a row; the
  scales, the edge rows and the remaining arguments are untouched.
-/
import proofs.«173624_j39702677684864_1_alg».proof.Proof.Gen.KernelIdeal.Launch
import proofs.«173624_j39702677684864_1_alg».proof.Proof.HostChain
import Idealize.ShloMosaic.Lib.StableHlo.Run

set_option maxRecDepth 16384

noncomputable section

namespace Cert.KernelIdeal.Stage1

open Cert.KernelIdeal Cert.KernelIdeal.Gen Idealize.ShloMosaic Idealize.ShloMosaic.TcCoe Idealize.SL.Sem Idealize.ShloMosaic.StableHlo

-- any contents of the buffers before the stretch
variable (W : Valuation τ sig (Elt Ideal))

/-- The layer's aggregated features. -/
theorem v45 : (StableHlo.after hostOps1 W (Proc.devRef .tc main_v45) : S100000x128.Idx → EReal) = Cert.HostChain.aggregate128 (W (Proc.devRef .tc main_v32)) (W (Proc.devRef .tc main_v13)) (W (Proc.devRef .tc main_v1)) (W (Proc.devRef .tc main_v3)) := by
  unfold Cert.HostChain.aggregate128 Cert.HostChain.wrap
  after_results_simp <;> rfl

/-- The in-degree scale as a column. -/
theorem v46 : (StableHlo.after hostOps1 W (Proc.devRef .tc main_v46) : S100000x1.Idx → EReal) = shapeCast S100000x1 (W (Proc.devRef .tc main_v16)) shapeCasts_S100000_S100000x1 := by
  after_results_simp <;> rfl

/-- The layer's bias as a row. -/
theorem v47 : (StableHlo.after hostOps1 W (Proc.devRef .tc main_v47) : S1x128.Idx → EReal) = shapeCast S1x128 (W (Proc.devRef .tc main_arg5)) shapeCasts_S128_S1x128 := by
  after_results_simp <;> rfl

/-- The stretch writes nothing to `main_arg4`. -/
theorem a4 : (StableHlo.after hostOps1 W (Proc.devRef .tc main_arg4) : S128x128.Idx → EReal) = (W (Proc.devRef .tc main_arg4)) := by
  after_results_simp <;> rfl

/-- The stretch writes nothing to `main_v1`. -/
theorem v1 : (StableHlo.after hostOps1 W (Proc.devRef .tc main_v1) : S640000.Idx → BitVec 32) = (W (Proc.devRef .tc main_v1)) := by
  after_results_simp <;> rfl

/-- The stretch writes nothing to `main_v3`. -/
theorem v3 : (StableHlo.after hostOps1 W (Proc.devRef .tc main_v3) : S640000.Idx → BitVec 32) = (W (Proc.devRef .tc main_v3)) := by
  after_results_simp <;> rfl

/-- The stretch writes nothing to `main_v13`. -/
theorem v13 : (StableHlo.after hostOps1 W (Proc.devRef .tc main_v13) : S100000.Idx → EReal) = (W (Proc.devRef .tc main_v13)) := by
  after_results_simp <;> rfl

/-- The stretch writes nothing to `main_v16`. -/
theorem v16 : (StableHlo.after hostOps1 W (Proc.devRef .tc main_v16) : S100000.Idx → EReal) = (W (Proc.devRef .tc main_v16)) := by
  after_results_simp <;> rfl

/-- The stretch writes nothing to `main_arg6`. -/
theorem a6 : (StableHlo.after hostOps1 W (Proc.devRef .tc main_arg6) : S128x47.Idx → EReal) = (W (Proc.devRef .tc main_arg6)) := by
  after_results_simp <;> rfl

/-- The stretch writes nothing to `main_arg7`. -/
theorem a7 : (StableHlo.after hostOps1 W (Proc.devRef .tc main_arg7) : S47.Idx → EReal) = (W (Proc.devRef .tc main_arg7)) := by
  after_results_simp <;> rfl

end Cert.KernelIdeal.Stage1

end
-- ==== Proof.HostStage2.lean ====
/-
  The whole-array operations between tiled regions 1 and 2, read at the buffers the rest of the program uses.

  From any buffer contents `W`: the next layer's aggregated features are `aggregate128` of the previous region's result
  and of the scales and edge rows as `W` holds them; the in-scale is recast as a column and the layer's bias as a row; the
  scales, the edge rows and the remaining arguments are untouched.
-/
import proofs.«173624_j39702677684864_1_alg».proof.Proof.Gen.KernelIdeal.Launch
import proofs.«173624_j39702677684864_1_alg».proof.Proof.HostChain
import Idealize.ShloMosaic.Lib.StableHlo.Run

set_option maxRecDepth 16384

noncomputable section

namespace Cert.KernelIdeal.Stage2

open Cert.KernelIdeal Cert.KernelIdeal.Gen Idealize.ShloMosaic Idealize.ShloMosaic.TcCoe Idealize.SL.Sem Idealize.ShloMosaic.StableHlo

-- any contents of the buffers before the stretch
variable (W : Valuation τ sig (Elt Ideal))

/-- The layer's aggregated features. -/
theorem v61 : (StableHlo.after hostOps2 W (Proc.devRef .tc main_v61) : S100000x128.Idx → EReal) = Cert.HostChain.aggregate128 (W (Proc.devRef .tc main_v48)) (W (Proc.devRef .tc main_v13)) (W (Proc.devRef .tc main_v1)) (W (Proc.devRef .tc main_v3)) := by
  unfold Cert.HostChain.aggregate128 Cert.HostChain.wrap
  after_results_simp <;> rfl

/-- The in-degree scale as a column. -/
theorem v62 : (StableHlo.after hostOps2 W (Proc.devRef .tc main_v62) : S100000x1.Idx → EReal) = shapeCast S100000x1 (W (Proc.devRef .tc main_v16)) shapeCasts_S100000_S100000x1 := by
  after_results_simp <;> rfl

/-- The layer's bias as a row. -/
theorem v63 : (StableHlo.after hostOps2 W (Proc.devRef .tc main_v63) : S1x47.Idx → EReal) = shapeCast S1x47 (W (Proc.devRef .tc main_arg7)) shapeCasts_S47_S1x47 := by
  after_results_simp <;> rfl

/-- The stretch writes nothing to `main_arg6`. -/
theorem a6 : (StableHlo.after hostOps2 W (Proc.devRef .tc main_arg6) : S128x47.Idx → EReal) = (W (Proc.devRef .tc main_arg6)) := by
  after_results_simp <;> rfl

end Cert.KernelIdeal.Stage2

end
-- ==== Proof.KernelValue.lean ====
/-
  The idealized kernel's result array as a function of its arguments.

  The buffer contents are followed through @main's six segments. Before the first region the whole-array operations
  leave the edge rows, the two degree scales and the first aggregation; a region leaves `layer` of the four arrays it
  finds and nothing else changed; the operations after a region aggregate its result with the same scales and edge
  rows, which no segment writes again. So the three regions leave `h1`, `h2`, `h3`, each `layer` of the aggregation of the
  one before, and `h3` is the three-layer network of the arguments in its whole-array spelling.
-/
import proofs.«173624_j39702677684864_1_alg».proof.Proof.Gen.KernelIdeal.Frame
import proofs.«173624_j39702677684864_1_alg».proof.Proof.KernelRun
import proofs.«173624_j39702677684864_1_alg».proof.Proof.Region0
import proofs.«173624_j39702677684864_1_alg».proof.Proof.Region1
import proofs.«173624_j39702677684864_1_alg».proof.Proof.Region2
import proofs.«173624_j39702677684864_1_alg».proof.Proof.HostStage0
import proofs.«173624_j39702677684864_1_alg».proof.Proof.HostStage1
import proofs.«173624_j39702677684864_1_alg».proof.Proof.HostStage2
import proofs.«173624_j39702677684864_1_alg».proof.Proof.HostChain

set_option maxRecDepth 16384

noncomputable section

namespace Cert.KernelIdeal.Result

open Cert.KernelIdeal Cert.KernelIdeal.Gen Idealize.ShloMosaic Idealize.ShloMosaic.TcCoe Idealize.SL.Sem

/-- `layer` of equal operands. -/
theorem layer_congr {n k o : ℕ} {A A' : FVec Ideal ⟨2, ![n, k]⟩ .f32} {s s' : FVec Ideal ⟨2, ![n, 1]⟩ .f32}
    {W W' : FVec Ideal ⟨2, ![k, o]⟩ .f32} {b b' : FVec Ideal ⟨2, ![1, o]⟩ .f32}
    (hA : A = A') (hs : s = s') (hW : W = W') (hb : b = b') :
    Cert.LibGraphLayer.layer A s W b = Cert.LibGraphLayer.layer A' s' W' b' := by rw [hA, hs, hW, hb]

/-- `aggregate128` of equal operands. -/
theorem aggregate_congr {h h' : FVec Ideal Cert.ReferenceIdeal.S100000x128 .f32} {no no' : FVec Ideal Cert.ReferenceIdeal.S100000 .f32}
    {s s' d d' : IVec Cert.ReferenceIdeal.S640000 32} (hh : h = h') (hn : no = no') (hs : s = s') (hd : d = d') :
    Cert.HostChain.aggregate128 h no s d = Cert.HostChain.aggregate128 h' no' s' d' := by rw [hh, hn, hs, hd]

variable (m : (ℓ : Loc nD τ sig) → Buf (Elt Ideal) ℓ) (ρ : Dev nD → PrngReg) (c : Dev nD)

/-! ## The arguments, the edge rows and the scales -/

abbrev aX : FVec Ideal S100000x100 .f32 := (m ((c.tc : Thread nD τ).loc main_arg0))
abbrev aE : IVec S2x640000 32 := (m ((c.tc : Thread nD τ).loc main_arg1))
abbrev aW1 : FVec Ideal S100x128 .f32 := (m ((c.tc : Thread nD τ).loc main_arg2))
abbrev aB1 : FVec Ideal S128 .f32 := (m ((c.tc : Thread nD τ).loc main_arg3))
abbrev aW2 : FVec Ideal S128x128 .f32 := (m ((c.tc : Thread nD τ).loc main_arg4))
abbrev aB2 : FVec Ideal S128 .f32 := (m ((c.tc : Thread nD τ).loc main_arg5))
abbrev aW3 : FVec Ideal S128x47 .f32 := (m ((c.tc : Thread nD τ).loc main_arg6))
abbrev aB3 : FVec Ideal S47 .f32 := (m ((c.tc : Thread nD τ).loc main_arg7))
abbrev sSrc : IVec S640000 32 := Cert.HostChain.src (aE m c)
abbrev sDst : IVec S640000 32 := Cert.HostChain.dst (aE m c)
abbrev sOut : FVec Ideal S100000 .f32 := Cert.HostChain.scale (sSrc m c)
abbrev sIn : FVec Ideal S100000 .f32 := Cert.HostChain.scale (sDst m c)
abbrev sInCol : FVec Ideal S100000x1 .f32 := shapeCast S100000x1 (sIn m c) shapeCasts_S100000_S100000x1

/-! ## What the three regions leave -/

/-- The first layer's output. -/
def h1 : FVec Ideal S100000x128 .f32 :=
  Cert.LibGraphLayer.layer (Cert.HostChain.aggregate100 (aX m c) (sOut m c) (sSrc m c) (sDst m c)) (sInCol m c) (aW1 m c)
    (shapeCast S1x128 (aB1 m c) shapeCasts_S128_S1x128)

/-- The second layer's output. -/
def h2 : FVec Ideal S100000x128 .f32 :=
  Cert.LibGraphLayer.layer (Cert.HostChain.aggregate128 (h1 m c) (sOut m c) (sSrc m c) (sDst m c)) (sInCol m c) (aW2 m c)
    (shapeCast S1x128 (aB2 m c) shapeCasts_S128_S1x128)

/-- The third layer's output: the result. -/
def h3 : FVec Ideal S100000x47 .f32 :=
  Cert.LibGraphLayer.layer (Cert.HostChain.aggregate128 (h2 m c) (sOut m c) (sSrc m c) (sDst m c)) (sInCol m c) (aW3 m c)
    (shapeCast S1x47 (aB3 m c) shapeCasts_S47_S1x47)

/-! ## After region 0 -/

theorem w2_v32 : (W2 m ρ c (Proc.devRef .tc main_v32) : S100000x128.Idx → EReal) = h1 m c :=
  (W2_arr m ρ c 4).trans ((Cert.KernelIdeal.Tile0.final (V1 m ρ) c).trans
    (layer_congr (Cert.KernelIdeal.Stage0.v29 (W0 m ρ c)) (Cert.KernelIdeal.Stage0.v30 (W0 m ρ c))
      (Cert.KernelIdeal.Stage0.a2 (W0 m ρ c)) (Cert.KernelIdeal.Stage0.v31 (W0 m ρ c))))
theorem w2_v1 : (W2 m ρ c (Proc.devRef .tc main_v1) : S640000.Idx → BitVec 32) = sSrc m c :=
  (W2_of_ne m ρ c main_v1 (by decide)).trans (Cert.KernelIdeal.Stage0.v1 (W0 m ρ c))
theorem w2_v3 : (W2 m ρ c (Proc.devRef .tc main_v3) : S640000.Idx → BitVec 32) = sDst m c :=
  (W2_of_ne m ρ c main_v3 (by decide)).trans (Cert.KernelIdeal.Stage0.v3 (W0 m ρ c))
theorem w2_v13 : (W2 m ρ c (Proc.devRef .tc main_v13) : S100000.Idx → EReal) = sOut m c :=
  (W2_of_ne m ρ c main_v13 (by decide)).trans (Cert.KernelIdeal.Stage0.v13 (W0 m ρ c))
theorem w2_v16 : (W2 m ρ c (Proc.devRef .tc main_v16) : S100000.Idx → EReal) = sIn m c :=
  (W2_of_ne m ρ c main_v16 (by decide)).trans (Cert.KernelIdeal.Stage0.v16 (W0 m ρ c))
theorem w2_a4 : (W2 m ρ c (Proc.devRef .tc main_arg4) : S128x128.Idx → EReal) = aW2 m c :=
  (W2_of_ne m ρ c main_arg4 (by decide)).trans (Cert.KernelIdeal.Stage0.a4 (W0 m ρ c))
theorem w2_a5 : (W2 m ρ c (Proc.devRef .tc main_arg5) : S128.Idx → EReal) = aB2 m c :=
  (W2_of_ne m ρ c main_arg5 (by decide)).trans (Cert.KernelIdeal.Stage0.a5 (W0 m ρ c))
theorem w2_a6 : (W2 m ρ c (Proc.devRef .tc main_arg6) : S128x47.Idx → EReal) = aW3 m c :=
  (W2_of_ne m ρ c main_arg6 (by decide)).trans (Cert.KernelIdeal.Stage0.a6 (W0 m ρ c))
theorem w2_a7 : (W2 m ρ c (Proc.devRef .tc main_arg7) : S47.Idx → EReal) = aB3 m c :=
  (W2_of_ne m ρ c main_arg7 (by decide)).trans (Cert.KernelIdeal.Stage0.a7 (W0 m ρ c))

/-! ## Before region 1 -/

theorem w3_v45 : (W3 m ρ c (Proc.devRef .tc main_v45) : S100000x128.Idx → EReal)
    = Cert.HostChain.aggregate128 (h1 m c) (sOut m c) (sSrc m c) (sDst m c) :=
  (Cert.KernelIdeal.Stage1.v45 (W2 m ρ c)).trans (aggregate_congr (w2_v32 m ρ c) (w2_v13 m ρ c) (w2_v1 m ρ c) (w2_v3 m ρ c))
theorem w3_v46 : (W3 m ρ c (Proc.devRef .tc main_v46) : S100000x1.Idx → EReal) = sInCol m c :=
  (Cert.KernelIdeal.Stage1.v46 (W2 m ρ c)).trans
    (congrArg (fun z : FVec Ideal S100000 .f32 => shapeCast S100000x1 z shapeCasts_S100000_S100000x1) (w2_v16 m ρ c))
theorem w3_v47 : (W3 m ρ c (Proc.devRef .tc main_v47) : S1x128.Idx → EReal) = shapeCast S1x128 (aB2 m c) shapeCasts_S128_S1x128 :=
  (Cert.KernelIdeal.Stage1.v47 (W2 m ρ c)).trans
    (congrArg (fun z : FVec Ideal S128 .f32 => shapeCast S1x128 z shapeCasts_S128_S1x128) (w2_a5 m ρ c))
theorem w3_a4 : (W3 m ρ c (Proc.devRef .tc main_arg4) : S128x128.Idx → EReal) = aW2 m c :=
  (Cert.KernelIdeal.Stage1.a4 (W2 m ρ c)).trans (w2_a4 m ρ c)
theorem w3_v1 : (W3 m ρ c (Proc.devRef .tc main_v1) : S640000.Idx → BitVec 32) = sSrc m c :=
  (Cert.KernelIdeal.Stage1.v1 (W2 m ρ c)).trans (w2_v1 m ρ c)
theorem w3_v3 : (W3 m ρ c (Proc.devRef .tc main_v3) : S640000.Idx → BitVec 32) = sDst m c :=
  (Cert.KernelIdeal.Stage1.v3 (W2 m ρ c)).trans (w2_v3 m ρ c)
theorem w3_v13 : (W3 m ρ c (Proc.devRef .tc main_v13) : S100000.Idx → EReal) = sOut m c :=
  (Cert.KernelIdeal.Stage1.v13 (W2 m ρ c)).trans (w2_v13 m ρ c)
theorem w3_v16 : (W3 m ρ c (Proc.devRef .tc main_v16) : S100000.Idx → EReal) = sIn m c :=
  (Cert.KernelIdeal.Stage1.v16 (W2 m ρ c)).trans (w2_v16 m ρ c)
theorem w3_a6 : (W3 m ρ c (Proc.devRef .tc main_arg6) : S128x47.Idx → EReal) = aW3 m c :=
  (Cert.KernelIdeal.Stage1.a6 (W2 m ρ c)).trans (w2_a6 m ρ c)
theorem w3_a7 : (W3 m ρ c (Proc.devRef .tc main_arg7) : S47.Idx → EReal) = aB3 m c :=
  (Cert.KernelIdeal.Stage1.a7 (W2 m ρ c)).trans (w2_a7 m ρ c)

/-! ## After region 1 -/

theorem w4_v48 : (W4 m ρ c (Proc.devRef .tc main_v48) : S100000x128.Idx → EReal) = h2 m c :=
  (W4_arr m ρ c 4).trans ((Cert.KernelIdeal.Tile1.final (V3 m ρ) c).trans
    (layer_congr (w3_v45 m ρ c) (w3_v46 m ρ c) (w3_a4 m ρ c) (w3_v47 m ρ c)))
theorem w4_v1 : (W4 m ρ c (Proc.devRef .tc main_v1) : S640000.Idx → BitVec 32) = sSrc m c :=
  (W4_of_ne m ρ c main_v1 (by decide)).trans (w3_v1 m ρ c)
theorem w4_v3 : (W4 m ρ c (Proc.devRef .tc main_v3) : S640000.Idx → BitVec 32) = sDst m c :=
  (W4_of_ne m ρ c main_v3 (by decide)).trans (w3_v3 m ρ c)
theorem w4_v13 : (W4 m ρ c (Proc.devRef .tc main_v13) : S100000.Idx → EReal) = sOut m c :=
  (W4_of_ne m ρ c main_v13 (by decide)).trans (w3_v13 m ρ c)
theorem w4_v16 : (W4 m ρ c (Proc.devRef .tc main_v16) : S100000.Idx → EReal) = sIn m c :=
  (W4_of_ne m ρ c main_v16 (by decide)).trans (w3_v16 m ρ c)
theorem w4_a6 : (W4 m ρ c (Proc.devRef .tc main_arg6) : S128x47.Idx → EReal) = aW3 m c :=
  (W4_of_ne m ρ c main_arg6 (by decide)).trans (w3_a6 m ρ c)
theorem w4_a7 : (W4 m ρ c (Proc.devRef .tc main_arg7) : S47.Idx → EReal) = aB3 m c :=
  (W4_of_ne m ρ c main_arg7 (by decide)).trans (w3_a7 m ρ c)

/-! ## Before region 2 -/

theorem w5_v61 : (W5 m ρ c (Proc.devRef .tc main_v61) : S100000x128.Idx → EReal)
    = Cert.HostChain.aggregate128 (h2 m c) (sOut m c) (sSrc m c) (sDst m c) :=
  (Cert.KernelIdeal.Stage2.v61 (W4 m ρ c)).trans (aggregate_congr (w4_v48 m ρ c) (w4_v13 m ρ c) (w4_v1 m ρ c) (w4_v3 m ρ c))
theorem w5_v62 : (W5 m ρ c (Proc.devRef .tc main_v62) : S100000x1.Idx → EReal) = sInCol m c :=
  (Cert.KernelIdeal.Stage2.v62 (W4 m ρ c)).trans
    (congrArg (fun z : FVec Ideal S100000 .f32 => shapeCast S100000x1 z shapeCasts_S100000_S100000x1) (w4_v16 m ρ c))
theorem w5_v63 : (W5 m ρ c (Proc.devRef .tc main_v63) : S1x47.Idx → EReal) = shapeCast S1x47 (aB3 m c) shapeCasts_S47_S1x47 :=
  (Cert.KernelIdeal.Stage2.v63 (W4 m ρ c)).trans
    (congrArg (fun z : FVec Ideal S47 .f32 => shapeCast S1x47 z shapeCasts_S47_S1x47) (w4_a7 m ρ c))
theorem w5_a6 : (W5 m ρ c (Proc.devRef .tc main_arg6) : S128x47.Idx → EReal) = aW3 m c :=
  (Cert.KernelIdeal.Stage2.a6 (W4 m ρ c)).trans (w4_a6 m ρ c)

/-! ## After region 2: the result -/

theorem w6_v64 : (W6 m ρ c (Proc.devRef .tc main_v64) : S100000x47.Idx → EReal) = h3 m c :=
  (W6_arr m ρ c 4).trans ((Cert.KernelIdeal.Tile2.final (V5 m ρ) c).trans
    (layer_congr (w5_v61 m ρ c) (w5_v62 m ρ c) (w5_a6 m ρ c) (w5_v63 m ρ c)))

/-- The result is the three-layer network in its whole-array spelling: each `layer` is that layer's dense stage. -/
theorem h3_eq : h3 m c = Cert.HostChain.network (aX m c) (aE m c) (aW1 m c) (aB1 m c) (aW2 m c) (aB2 m c) (aW3 m c) (aB3 m c) := by
  unfold h3 h2 h1 Cert.HostChain.network
  rw [Cert.HostChain.dense1_eq _ _ _ _ shapeCasts_S100000_S100000x1 shapeCasts_S128_S1x128,
    Cert.HostChain.dense2_eq _ _ _ _ shapeCasts_S100000_S100000x1 shapeCasts_S128_S1x128,
    Cert.HostChain.dense3_eq _ _ _ _ shapeCasts_S100000_S100000x1 shapeCasts_S47_S1x47]

/-- THE RUN: every weakly fair execution of the idealized kernel terminates, faults nowhere, leaves the result array at
    the three-layer network of the arguments and the arguments as launched. -/
theorem run : θ_run defs (onTc (τ := τ) (main (F := Ideal))) ⟨m, fun _ => 0, ρ⟩ (fun r => ∀ c : Dev nD,
      r.2.mem ((c.tc : Thread nD τ).loc main_v64)
        = Cert.HostChain.network (aX m c) (aE m c) (aW1 m c) (aB1 m c) (aW2 m c) (aB2 m c) (aW3 m c) (aB3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans ((w6_v64 m ρ c).trans (h3_eq m c)), (h c).2⟩)
    (Cert.KernelIdeal.Named.run_named (F := Ideal) m ρ)

end Cert.KernelIdeal.Result

end
-- ==== Proof.lean ====
/-
  Three graph-convolution layers, tiled, against the same three layers computed on whole arrays.

  Both programs compute, from node features `x`, an edge list and three weight–bias pairs,
  `h ↦ relu ((aggregate h · in-scale) · W + b)` three times over, where `aggregate h` adds up, at every destination node,
  the rows of `h · out-scale` of its source nodes, and the two scales are `rsqrt (max (degree, 1))` of the out- and
  in-degrees. The kernel keeps the gather, the scatter-add and the degrees as whole-array operations and tiles only the
  dense stage — scale, matrix product, bias, cut-off at zero — over blocks of 5000 nodes; the reference does everything
  on whole arrays.

  On the extended reals the two sides are the same function with no law of arithmetic needed: a tile's matrix product
  into a zero accumulator and the whole array's product are the same sum of the same products at every entry, the
  rounding of the product's operands to a narrower float format is the identity, a column or row spread over a tile reads
  the same entry as the vector spread over the array, and the 20 tiles cover the nodes. The whole-array operations around
  the regions are word for word the reference's, so they are carried as named functions of the arrays and never opened.
  The claim holds for every input: the precondition is not used.
-/
import proofs.«173624_j39702677684864_1_alg».proof.Defs
import proofs.«173624_j39702677684864_1_alg».proof.Proof.Gen.Kernel
import proofs.«173624_j39702677684864_1_alg».proof.Proof.Gen.Kernel.Skeleton
import proofs.«173624_j39702677684864_1_alg».proof.Proof.Gen.Kernel.Launch
import proofs.«173624_j39702677684864_1_alg».proof.Proof.Gen.Kernel.Points
import proofs.«173624_j39702677684864_1_alg».proof.Proof.Gen.Kernel.Frame
import proofs.«173624_j39702677684864_1_alg».proof.Proof.Gen.KernelIdeal
import proofs.«173624_j39702677684864_1_alg».proof.Proof.Gen.KernelIdeal.Skeleton
import proofs.«173624_j39702677684864_1_alg».proof.Proof.Gen.KernelIdeal.Launch
import proofs.«173624_j39702677684864_1_alg».proof.Proof.Gen.KernelIdeal.Points
import proofs.«173624_j39702677684864_1_alg».proof.Proof.Gen.KernelIdeal.Frame
import proofs.«173624_j39702677684864_1_alg».proof.Proof.Gen.ReferenceIdeal
import proofs.«173624_j39702677684864_1_alg».proof.Proof.Gen.Pre_finite_inputs
import proofs.«173624_j39702677684864_1_alg».proof.Proof.Gen.ReferenceIdeal.Run
import proofs.«173624_j39702677684864_1_alg».proof.Proof.HostChain
import proofs.«173624_j39702677684864_1_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of whole-array operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end at the three-layer network of the arguments: the kernel's by following its buffers through the
    regions, the reference's by reading its composed term; the arguments agree, so the results do. -/
theorem algebraic : Cert.algebraic_KernelIdeal_ReferenceIdeal := by
  intro m ρ m' ρ' _ hagree
  refine ⟨fun c => Cert.HostChain.network (Cert.KernelIdeal.Result.aX m c) (Cert.KernelIdeal.Result.aE m c)
    (Cert.KernelIdeal.Result.aW1 m c) (Cert.KernelIdeal.Result.aB1 m c) (Cert.KernelIdeal.Result.aW2 m c)
    (Cert.KernelIdeal.Result.aB2 m c) (Cert.KernelIdeal.Result.aW3 m c) (Cert.KernelIdeal.Result.aB3 m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.HostChain.reference_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
